-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x16 : Shape := ⟨2, ![128, 16]⟩
abbrev S16 : Shape := ⟨1, ![16]⟩
abbrev S16x16 : Shape := ⟨2, ![16, 16]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x16 : S_.BroadcastsInDim S128x16 (![] : Fin 0 → Fin S128x16.rank)
  reducesTo_S128x16_S_d0_1 : S128x16.ReducesTo [0, 1] S_
  bcast_S_S16 : S_.BroadcastsInDim S16 (![] : Fin 0 → Fin S16.rank)
  reducesTo_S16_S_d0 : S16.ReducesTo [0] S_
  bcast_S_S16x16 : S_.BroadcastsInDim S16x16 (![] : Fin 0 → Fin S16x16.rank)
  reducesTo_S16x16_S_d0_1 : S16x16.ReducesTo [0, 1] S_

variable [Facts]

def fn_part1 {F : FTy → Type} [FloatOps F] (main_arg4 : FVec F S16x16 .f32) (main_arg5 : FVec F S16 .f32) (main_v13 : IVec S_ 1) (main_v16 : IVec S16 1) : IVec S_ 1 :=
  let main_c_5 : IVec S_ 1 := constantI S_ 1 1#1
  let main_v17 : IVec S_ 1 := (fun x v => Host.reduce IntOp.andi x v reducesTo_S16_S_d0 h_S_) main_v16 main_c_5
  let main_v18 : IVec S_ 1 := andi main_v13 main_v17
  let main_v19 : FVec F S16x16 .f32 := Host.absf main_arg4
  let main_cst_6 : FVec F S_ .f32 := constant S_ .f32 0x7F800000#32
  let main_v20 : FVec F S16x16 .f32 := broadcastInDim S16x16 ![] bcast_S_S16x16 main_cst_6
  let main_v21 : IVec S16x16 1 := cmpf .olt main_v19 main_v20
  let main_c_7 : IVec S_ 1 := constantI S_ 1 1#1
  let main_v22 : IVec S_ 1 := (fun x v => Host.reduce IntOp.andi x v reducesTo_S16x16_S_d0_1 h_S_) main_v21 main_c_7
  let main_v23 : IVec S_ 1 := andi main_v18 main_v22
  let main_v24 : FVec F S16 .f32 := Host.absf main_arg5
  let main_cst_8 : FVec F S_ .f32 := constant S_ .f32 0x7F800000#32
  let main_v25 : FVec F S16 .f32 := broadcastInDim S16 ![] bcast_S_S16 main_cst_8
  let main_v26 : IVec S16 1 := cmpf .olt main_v24 main_v25
  let main_c_9 : IVec S_ 1 := constantI S_ 1 1#1
  let main_v27 : IVec S_ 1 := (fun x v => Host.reduce IntOp.andi x v reducesTo_S16_S_d0 h_S_) main_v26 main_c_9
  let main_v28 : IVec S_ 1 := andi main_v23 main_v27
  main_v28

def fn {F : FTy → Type} [FloatOps F] (main_arg0 : FVec F S10000x128 .f32) (main_arg1 : FVec F S10000x10000 .f32) (main_arg2 : FVec F S128x16 .f32) (main_arg3 : FVec F S16 .f32) (main_arg4 : FVec F S16x16 .f32) (main_arg5 : FVec F S16 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x16 .f32 := Host.absf main_arg2
  let main_cst_2 : FVec F S_ .f32 := constant S_ .f32 0x7F800000#32
  let main_v10 : FVec F S128x16 .f32 := broadcastInDim S128x16 ![] bcast_S_S128x16 main_cst_2
  let main_v11 : IVec S128x16 1 := cmpf .olt main_v9 main_v10
  let main_c_3 : IVec S_ 1 := constantI S_ 1 1#1
  let main_v12 : IVec S_ 1 := (fun x v => Host.reduce IntOp.andi x v reducesTo_S128x16_S_d0_1 h_S_) main_v11 main_c_3
  let main_v13 : IVec S_ 1 := andi main_v8 main_v12
  let main_v14 : FVec F S16 .f32 := Host.absf main_arg3
  let main_cst_4 : FVec F S_ .f32 := constant S_ .f32 0x7F800000#32
  let main_v15 : FVec F S16 .f32 := broadcastInDim S16 ![] bcast_S_S16 main_cst_4
  let main_v16 : IVec S16 1 := cmpf .olt main_v14 main_v15
  fn_part1 (F := F) main_arg4 main_arg5 main_v13 main_v16
-- ==== Kernel.lean ====
abbrev S10000x128 : Shape := ⟨2, ![10000, 128]⟩
abbrev S10000x10000 : Shape := ⟨2, ![10000, 10000]⟩
abbrev S128x16 : Shape := ⟨2, ![128, 16]⟩
abbrev S16 : Shape := ⟨1, ![16]⟩
abbrev S16x16 : Shape := ⟨2, ![16, 16]⟩
abbrev S1x16 : Shape := ⟨2, ![1, 16]⟩
abbrev S10000x16 : Shape := ⟨2, ![10000, 16]⟩
abbrev S400x10000 : Shape := ⟨2, ![400, 10000]⟩
abbrev S400x16 : Shape := ⟨2, ![400, 16]⟩

abbrev nBuf : Space → Nat
  | .hbm => 9
  | .vmem => 11
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x16, .f32⟩
  | .hbm, ⟨3, _⟩ => ⟨S16, .f32⟩
  | .hbm, ⟨4, _⟩ => ⟨S16x16, .f32⟩
  | .hbm, ⟨5, _⟩ => ⟨S16, .f32⟩
  | .hbm, ⟨6, _⟩ => ⟨S1x16, .f32⟩
  | .hbm, ⟨7, _⟩ => ⟨S1x16, .f32⟩
  | .hbm, ⟨8, _⟩ => ⟨S10000x16, .f32⟩
  | .local _ .vmem, ⟨0, _⟩ => ⟨S10000x128, .f32⟩
  | .local _ .vmem, ⟨1, _⟩ => ⟨S400x10000, .f32⟩
  | .local _ .vmem, ⟨2, _⟩ => ⟨S400x10000, .f32⟩
  | .local _ .vmem, ⟨3, _⟩ => ⟨S128x16, .f32⟩
  | .local _ .vmem, ⟨4, _⟩ => ⟨S1x16, .f32⟩
  | .local _ .vmem, ⟨5, _⟩ => ⟨S16x16, .f32⟩
  | .local _ .vmem, ⟨6, _⟩ => ⟨S1x16, .f32⟩
  | .local _ .vmem, ⟨7, _⟩ => ⟨S400x16, .f32⟩
  | .local _ .vmem, ⟨8, _⟩ => ⟨S400x16, .f32⟩
  | .local _ .vmem, ⟨9, _⟩ => ⟨S10000x16, .f32⟩
  | .local _ .vmem, ⟨10, _⟩ => ⟨S10000x16, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_v0 : Ref sig .tc := ⟨.hbm, 6, rfl⟩
abbrev main_call0_v1 : Ref sig .tc := ⟨.hbm, 7, rfl⟩
abbrev main_v0 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_scratch0 : Ref sig .tc := ⟨.vmem, 9, rfl⟩
abbrev cc0_scratch1 : Ref sig .tc := ⟨.vmem, 10, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨2, ![2, 25], ![false, false]⟩

def k0_cond3 (i : grid0.Coords) : BitVec 1 :=
  let arg0 : BitVec 32 := BitVec.ofNat 32 (i 0).val
  let c0_i32_7 : BitVec 32 := 0#32
  let v15 : BitVec 1 := Scalar.cmpi .eq arg0 c0_i32_7
  let v16 : BitVec 32 := Scalar.extui v15
  let c0_i32_8 : BitVec 32 := 0#32
  let v17 : BitVec 1 := Scalar.cmpi .ne v16 c0_i32_8
  v17

def k0_off1 (i : grid0.Coords) : Fin 2 → Nat :=
  let arg1 : BitVec 32 := BitVec.ofNat 32 (i 1).val
  let c400_i32 : BitVec 32 := 400#32
  let v25 : BitVec 32 := Scalar.muli arg1 c400_i32
  let v26 : Index := Scalar.indexCast v25
  let c0_13 : Index := 0#32
  ![v26.toNat, 0]
def k0_cond4 (i : grid0.Coords) : BitVec 1 :=
  let arg0 : BitVec 32 := BitVec.ofNat 32 (i 0).val
  let c1_i32_9 : BitVec 32 := 1#32
  let v18 : BitVec 1 := Scalar.cmpi .eq arg0 c1_i32_9
  let v19 : BitVec 32 := Scalar.extui v18
  let c0_i32_10 : BitVec 32 := 0#32
  let v20 : BitVec 1 := Scalar.cmpi .ne v19 c0_i32_10
  v20

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 c0_i32_0 arg1
  let c0_i32_1 : BitVec 32 := 0#32
  let c0_i32_2 : BitVec 32 := 0#32
  ![v1.toNat, c0_i32_1.toNat]

abbrev stage0_0 : Fin 1 → Memref sig .tc .vmem S10000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S400x10000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S128x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S16x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S400x16 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

class Facts₀ : Prop where
  shapeCasts_S16_S1x16 : S16.ShapeCasts S1x16
  inb_S10000x128_S10000x128_0_0 : ∀ a, (![0, 0] : Fin 2 → Nat) a + S10000x128.size a ≤ S10000x128.size a
  h_S10000x128 : 0 < S10000x128.numel
  inb_S128x16_S128x16_0_0 : ∀ a, (![0, 0] : Fin 2 → Nat) a + S128x16.size a ≤ S128x16.size a
  h_S128x16 : 0 < S128x16.numel
  inb_S10000x16_S10000x16_0_0 : ∀ a, (![0, 0] : Fin 2 → Nat) a + S10000x16.size a ≤ S10000x16.size a
  h_S10000x16 : 0 < S10000x16.numel
  shapeCasts_S10000x16_S10000x16 : S10000x16.ShapeCasts S10000x16
  inb_S16x16_S16x16_0_0 : ∀ a, (![0, 0] : Fin 2 → Nat) a + S16x16.size a ≤ S16x16.size a
  h_S16x16 : 0 < S16x16.numel
  inb_S400x10000_S400x10000_0_0 : ∀ a, (![0, 0] : Fin 2 → Nat) a + S400x10000.size a ≤ S400x10000.size a
  h_S400x10000 : 0 < S400x10000.numel
  bitsLt_bf16_f32 : FTy.bits .bf16 < FTy.bits .f32
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S400x16 : S1x16.Broadcasts S400x16
  h_S400x16 : 0 < S400x16.numel
  shapeCasts_S400x16_S400x16 : S400x16.ShapeCasts S400x16
  inb_S400x16_S400x16_0_0 : ∀ a, (![0, 0] : Fin 2 → Nat) a + S400x16.size a ≤ S400x16.size a
  dot_S10000x128_S128x16_S10000x16_1_0_0_1_n_n_wf : DotDims.WF S10000x128 S128x16 S10000x16 [1] [0] [0] [1] [] []
  dot_S10000x16_S16x16_S10000x16_1_0_0_1_n_n_wf : DotDims.WF S10000x16 S16x16 S10000x16 [1] [0] [0] [1] [] []
  dot_S400x10000_S10000x16_S400x16_1_0_0_1_n_n_wf : DotDims.WF S400x10000 S10000x16 S400x16 [1] [0] [0] [1] [] []
  hrank0 : 0 < grid0.rank
  k0_off1_inb : ∀ i : grid0.Coords, ∀ (k0_h3 : k0_cond3 i = 1#1), ∀ a, (k0_off1 i) a + S400x16.size a ≤ S10000x16.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S10000x128.size a
  hwx0_0 : ∀ i : grid0.Coords, EltTy.bits .f32 = 32 ∨ (Rect.block (s := S10000x128) S10000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S400x10000.size a ≤ S10000x10000.size a
  hwx0_1 : ∀ i : grid0.Coords, EltTy.bits .f32 = 32 ∨ (Rect.block (s := S10000x10000) S400x10000.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x16.size a ≤ S128x16.size a
  hwx0_2 : ∀ i : grid0.Coords, EltTy.bits .f32 = 32 ∨ (Rect.block (s := S128x16) S128x16.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x16.size a ≤ S1x16.size a
  hwx0_3 : ∀ i : grid0.Coords, EltTy.bits .f32 = 32 ∨ (Rect.block (s := S1x16) S1x16.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S16x16.size a ≤ S16x16.size a
  hwx0_4 : ∀ i : grid0.Coords, EltTy.bits .f32 = 32 ∨ (Rect.block (s := S16x16) S16x16.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x16.size a ≤ S1x16.size a
  hwx0_5 : ∀ i : grid0.Coords, EltTy.bits .f32 = 32 ∨ (Rect.block (s := S1x16) S1x16.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S400x16.size a ≤ S10000x16.size a
  hwx0_6 : ∀ i : grid0.Coords, EltTy.bits .f32 = 32 ∨ (Rect.block (s := S10000x16) S400x16.size (cc0_transform_6 i) (hinb0_6 i)).WholeWords (EltTy.packing .f32)

variable [Facts₀]

def dot_S10000x128_S128x16_S10000x16_1_0_0_1_n_n : DotDims S10000x128 S128x16 S10000x16 where
  lhsContracting := [1]
  rhsContracting := [0]
  lhsNonContracting := [0]
  rhsNonContracting := [1]
  lhsBatch := []
  rhsBatch := []
  wf := dot_S10000x128_S128x16_S10000x16_1_0_0_1_n_n_wf
def dot_S10000x16_S16x16_S10000x16_1_0_0_1_n_n : DotDims S10000x16 S16x16 S10000x16 where
  lhsContracting := [1]
  rhsContracting := [0]
  lhsNonContracting := [0]
  rhsNonContracting := [1]
  lhsBatch := []
  rhsBatch := []
  wf := dot_S10000x16_S16x16_S10000x16_1_0_0_1_n_n_wf
def dot_S400x10000_S10000x16_S400x16_1_0_0_1_n_n : DotDims S400x10000 S10000x16 S400x16 where
  lhsContracting := [1]
  rhsContracting := [0]
  lhsNonContracting := [0]
  rhsNonContracting := [1]
  lhsBatch := []
  rhsBatch := []
  wf := dot_S400x10000_S10000x16_S400x16_1_0_0_1_n_n_wf

abbrev win0_0 : Pipeline.Window sig grid0 :=
  Pipeline.Window.ofSpec (Memref.whole main_arg0) S10000x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S400x10000.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x16.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_call0_v0) S1x16.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S16x16.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_call0_v1) S1x16.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v0) S400x16.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun _ => false | 5 => fun _ => false | 6 => fun i => !(k0_cond4 i == 1#1) | ⟨_ + 7, h⟩ => absurd h (Nat.not_lt.2 (Nat.le_add_left _ _))

class Facts : Prop extends Facts₀ where

variable [Facts]
-- ==== ReferenceIdeal.lean ====
abbrev S10000x128 : Shape := ⟨2, ![10000, 128]⟩
abbrev S10000x10000 : Shape := ⟨2, ![10000, 10000]⟩
abbrev S128x16 : Shape := ⟨2, ![128, 16]⟩
abbrev S16 : Shape := ⟨1, ![16]⟩
abbrev S16x16 : Shape := ⟨2, ![16, 16]⟩
abbrev S10000x16 : Shape := ⟨2, ![10000, 16]⟩
abbrev S1x16 : Shape := ⟨2, ![1, 16]⟩
abbrev S_ : Shape := ⟨0, ![]⟩

abbrev nBuf : Space → Nat
  | .hbm => 19
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x16, .f32⟩
  | .hbm, ⟨3, _⟩ => ⟨S16, .f32⟩
  | .hbm, ⟨4, _⟩ => ⟨S16x16, .f32⟩
  | .hbm, ⟨5, _⟩ => ⟨S16, .f32⟩
  | .hbm, ⟨6, _⟩ => ⟨S10000x16, .f32⟩
  | .hbm, ⟨7, _⟩ => ⟨S10000x16, .f32⟩
  | .hbm, ⟨8, _⟩ => ⟨S1x16, .f32⟩
  | .hbm, ⟨9, _⟩ => ⟨S10000x16, .f32⟩
  | .hbm, ⟨10, _⟩ => ⟨S10000x16, .f32⟩
  | .hbm, ⟨11, _⟩ => ⟨S_, .f32⟩
  | .hbm, ⟨12, _⟩ => ⟨S10000x16, .f32⟩
  | .hbm, ⟨13, _⟩ => ⟨S10000x16, .f32⟩
  | .hbm, ⟨14, _⟩ => ⟨S10000x16, .f32⟩
  | .hbm, ⟨15, _⟩ => ⟨S10000x16, .f32⟩
  | .hbm, ⟨16, _⟩ => ⟨S1x16, .f32⟩
  | .hbm, ⟨17, _⟩ => ⟨S10000x16, .f32⟩
  | .hbm, ⟨18, _⟩ => ⟨S10000x16, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_call0_cst : Ref sig .tc := ⟨.hbm, 11, rfl⟩
abbrev main_call0_v0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩

abbrev nD : Nat := 1
abbrev τ : Topo := Topo.v7x

variable {F : FTy → Type} [FloatOps F]

class Facts₀ : Prop where
  bcast_S16_S1x16_1 : S16.BroadcastsInDim S1x16 (![1] : Fin 1 → Fin S1x16.rank)
  bcast_S1x16_S10000x16_0_1 : S1x16.BroadcastsInDim S10000x16 (![0, 1] : Fin 2 → Fin S10000x16.rank)
  bcast_S_S10000x16 : S_.BroadcastsInDim S10000x16 (![] : Fin 0 → Fin S10000x16.rank)
  dot_S10000x128_S128x16_S10000x16_1_0_0_1_n_n_wf : DotDims.WF S10000x128 S128x16 S10000x16 [1] [0] [0] [1] [] []
  dot_S10000x10000_S10000x16_S10000x16_1_0_0_1_n_n_wf : DotDims.WF S10000x10000 S10000x16 S10000x16 [1] [0] [0] [1] [] []
  dot_S10000x16_S16x16_S10000x16_1_0_0_1_n_n_wf : DotDims.WF S10000x16 S16x16 S10000x16 [1] [0] [0] [1] [] []

variable [Facts₀]

def dot_S10000x128_S128x16_S10000x16_1_0_0_1_n_n : DotDims S10000x128 S128x16 S10000x16 where
  lhsContracting := [1]
  rhsContracting := [0]
  lhsNonContracting := [0]
  rhsNonContracting := [1]
  lhsBatch := []
  rhsBatch := []
  wf := dot_S10000x128_S128x16_S10000x16_1_0_0_1_n_n_wf
def dot_S10000x10000_S10000x16_S10000x16_1_0_0_1_n_n : DotDims S10000x10000 S10000x16 S10000x16 where
  lhsContracting := [1]
  rhsContracting := [0]
  lhsNonContracting := [0]
  rhsNonContracting := [1]
  lhsBatch := []
  rhsBatch := []
  wf := dot_S10000x10000_S10000x16_S10000x16_1_0_0_1_n_n_wf
def dot_S10000x16_S16x16_S10000x16_1_0_0_1_n_n : DotDims S10000x16 S16x16 S10000x16 where
  lhsContracting := [1]
  rhsContracting := [0]
  lhsNonContracting := [0]
  rhsNonContracting := [1]
  lhsBatch := []
  rhsBatch := []
  wf := dot_S10000x16_S16x16_S10000x16_1_0_0_1_n_n_wf

class Facts : Prop extends Facts₀ where

variable [Facts]
-- ==== Proof.BitsRuns.lean ====
/-
  The kernel body run once per control case, on whole staging memrefs at named contents.

  The grid is (pass, row block) = (2, 25). Four control cases partition its fifty points: the first point of
  pass 0 (the support x·W1 is stored into the first scratch, then the row block of adj·support + b1 is stored into the
  rows of the second scratch the point's coordinate selects), the later points of pass 0 (only that row block), the
  first point of pass 1 (the second scratch is read whole, relu'd, multiplied by W2 into the first scratch, then the
  row block of adj·support + b2 goes to the output block) and the later points of pass 1 (only that output block).
  Each run states what every buffer the case touches holds afterwards, through the body's named payloads.
-/
import proofs.«127602_g13606456393732_cont_sun_m_1345_5_alg».proof.Proof.Gen.Kernel.Frame
import proofs.«127602_g13606456393732_cont_sun_m_1345_5_alg».proof.Proof.Gen.Kernel.Skeleton
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Body

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The four branch conditions of the body, over the grid coordinates: the first point of pass 0, the first point
    of pass 1, pass 0, pass 1. -/
abbrev c1 (i : grid0.Coords) : Prop := Scalar.cmpi .ne (Scalar.extui (Scalar.andi (Scalar.cmpi .eq (BitVec.ofNat 32 (i 0).val) 0#32) (Scalar.cmpi .eq (BitVec.ofNat 32 (i 1).val) 0#32))) 0#32 = 1#1
abbrev c2 (i : grid0.Coords) : Prop := Scalar.cmpi .ne (Scalar.extui (Scalar.andi (Scalar.cmpi .eq (BitVec.ofNat 32 (i 0).val) 1#32) (Scalar.cmpi .eq (BitVec.ofNat 32 (i 1).val) 0#32))) 0#32 = 1#1
abbrev c3 (i : grid0.Coords) : Prop := k0_cond3 i = 1#1
abbrev c4 (i : grid0.Coords) : Prop := k0_cond4 i = 1#1

theorem hz2 : (![0, 0] : Fin 2 → ℕ) = fun _ => 0 := by funext a; fin_cases a <;> rfl

/-- The second scratch after a pass-0 point: the point's row block written over what it held. -/
def slab (i : grid0.Coords) (h3 : c3 i) (arg10 : Memref sig .tc .vmem S10000x16 .f32) (harg10 : arg10.IsWhole)
    (hs : Vec F S10000x16 .f32) (w : Vec F S400x16 .f32) : Vec F S10000x16 .f32 :=
  arg10.view.read (Elt F) (arg10.view.writes (Elt F) (harg10.unread hs)
    [⟨Rect.unit (s := S10000x16) (k0_off1 i) S400x16.size (k0_off1_inb i h3), w⟩])

set_option maxHeartbeats 1000000 in
/-- The first point of pass 0: x·W1 goes to the first scratch whatever it held, and rows of adj·(x·W1) + b1 to the
    second scratch's rows at the point's offset. -/
theorem runA (c : Dev nD) (i : grid0.Coords) (arg2 : Memref sig .tc .vmem S10000x128 .f32) (harg2 : arg2.IsWhole) (arg3 : Memref sig .tc .vmem S400x10000 .f32) (harg3 : arg3.IsWhole) (arg4 : Memref sig .tc .vmem S128x16 .f32) (harg4 : arg4.IsWhole) (arg5 : Memref sig .tc .vmem S1x16 .f32) (harg5 : arg5.IsWhole) (arg6 : Memref sig .tc .vmem S16x16 .f32) (harg6 : arg6.IsWhole) (arg7 : Memref sig .tc .vmem S1x16 .f32) (harg7 : arg7.IsWhole) (arg8 : Memref sig .tc .vmem S400x16 .f32) (harg8 : arg8.IsWhole) (arg9 : Memref sig .tc .vmem S10000x16 .f32) (harg9 : arg9.IsWhole) (arg10 : Memref sig .tc .vmem S10000x16 .f32) (harg10 : arg10.IsWhole)
    (h1 : c1 i) (h2 : ¬ c2 i) (h3 : c3 i) (h4 : ¬ c4 i)
    (x0 : Vec F S10000x128 .f32) (x2 : Vec F S128x16 .f32) (x1 : Vec F S400x10000 .f32) (x3 : Vec F S1x16 .f32) (hs : Vec F S10000x16 .f32)
    (E : Set ℕ) (K : PUnit → sProp 𝕄) :
    iprop(owns (c : Thread nD τ) arg2 fullShare x0 ∗ owns (c : Thread nD τ) arg4 fullShare x2 ∗ (∃ d, owns (c : Thread nD τ) arg9 fullShare d) ∗ owns (c : Thread nD τ) arg3 fullShare x1 ∗ owns (c : Thread nD τ) arg5 fullShare x3 ∗ owns (c : Thread nD τ) arg10 fullShare hs
        ∗ (iprop(owns (c : Thread nD τ) arg2 fullShare x0 ∗ owns (c : Thread nD τ) arg4 fullShare x2 ∗ owns (c : Thread nD τ) arg9 fullShare (k0_pay1 x0 x2) ∗ owns (c : Thread nD τ) arg3 fullShare x1 ∗ owns (c : Thread nD τ) arg5 fullShare x3 ∗ owns (c : Thread nD τ) arg10 fullShare (slab i h3 arg10 harg10 hs (k0_pay4 x1 (k0_pay1 x0 x2) x3))) -∗ K ⟨⟩))
      ⊢ wp frame (wpE (defs₀ (F := F)) Variants.none c none) E (cc0__gcn_kernel i arg2 harg2 arg3 harg3 arg4 harg4 arg5 harg5 arg6 harg6 arg7 harg7 arg8 harg8 arg9 harg9 arg10 harg10) K := by
  simp only [cc0__gcn_kernel_eq_skeleton]; unfold cc0__gcn_kernel_skel
  unfold owns
  unfold slab
  iintro ⟨⟨%f0, %hf0, H0⟩, ⟨%f2, %hf2, H2⟩, ⟨%d9, %f9, -, H9⟩, ⟨%f1, %hf1, H1⟩, ⟨%f3, %hf3, H3⟩, ⟨%fh, %hfh, HH⟩, Hk⟩
  obtain rfl := harg2.eq_unread hf0; obtain rfl := harg4.eq_unread hf2; obtain rfl := harg3.eq_unread hf1; obtain rfl := harg5.eq_unread hf3; obtain rfl := harg10.eq_unread hfh
  sl_exec (disch := first | exact h1 | exact h2 | exact h3 | exact h4)
  sl_step
  iapply Hk
  have e9 : View.read (Elt F) arg9.view (arg9.view.writes (Elt F) f9 (runA.sl.H9_1 c arg2 harg2 arg4 harg4 x0 x2)) = k0_pay1 x0 x2 := by
    sl_unfold_words
    rw [View.read_writes_eq_canon _ _ _ (fun y => ⟨_, List.mem_singleton_self _, View.mem_set_unit_zero hz2 inb_S10000x16_S10000x16_0_0 y⟩), View.canon_unit_zero hz2]
    simp only [View.readAt_eq_ld, harg2.read_unread, harg4.read_unread, View.ld_unit_zero (S := S10000x128) hz2, View.ld_unit_zero (S := S128x16) hz2]
  have e12 : runA.sl.v12 c arg2 harg2 arg4 harg4 arg9 x0 x2 = k0_pay1 x0 x2 := by
    sl_unfold_words
    rw [View.readCov_unit_zero _ hz2]
    simp only [View.readAt_eq_ld, harg2.read_unread, harg4.read_unread, View.ld_unit_zero (S := S10000x128) hz2, View.ld_unit_zero (S := S128x16) hz2]
  have e1 : View.readAt (Elt F) arg3.view (Rect.unit (s := S400x10000) ![0, 0] S400x10000.size inb_S400x10000_S400x10000_0_0).toLoadRect (harg3.unread x1) = x1 := by
    simp only [View.readAt_eq_ld, harg3.read_unread, View.ld_unit_zero (S := S400x10000) hz2]
  have e3 : View.readAt (Elt F) arg5.view (Rect.unit (s := S1x16) ![0, 0] S1x16.size inb_S1x16_S1x16_0_0).toLoadRect (harg5.unread x3) = x3 := by
    simp only [View.readAt_eq_ld, harg5.read_unread, View.ld_unit_zero (S := S1x16) hz2]
  rw [e12, e1, e3]
  isplitl [H0]
  · iexists _; isplitr
    · ipureintro; exact harg2.read_unread _
    iexact H0
  isplitl [H2]
  · iexists _; isplitr
    · ipureintro; exact harg4.read_unread _
    iexact H2
  isplitl [H9]
  · iexists _; isplitr
    · ipureintro; exact e9
    iexact H9
  isplitl [H1]
  · iexists _; isplitr
    · ipureintro; exact harg3.read_unread _
    iexact H1
  isplitl [H3]
  · iexists _; isplitr
    · ipureintro; exact harg5.read_unread _
    iexact H3
  iexists _; isplitr
  · ipureintro; exact rfl
  iexact HH

set_option maxHeartbeats 1000000 in
/-- A later point of pass 0: rows of adj·support + b1 go to the second scratch's rows at the point's offset. -/
theorem runB (c : Dev nD) (i : grid0.Coords) (arg2 : Memref sig .tc .vmem S10000x128 .f32) (harg2 : arg2.IsWhole) (arg3 : Memref sig .tc .vmem S400x10000 .f32) (harg3 : arg3.IsWhole) (arg4 : Memref sig .tc .vmem S128x16 .f32) (harg4 : arg4.IsWhole) (arg5 : Memref sig .tc .vmem S1x16 .f32) (harg5 : arg5.IsWhole) (arg6 : Memref sig .tc .vmem S16x16 .f32) (harg6 : arg6.IsWhole) (arg7 : Memref sig .tc .vmem S1x16 .f32) (harg7 : arg7.IsWhole) (arg8 : Memref sig .tc .vmem S400x16 .f32) (harg8 : arg8.IsWhole) (arg9 : Memref sig .tc .vmem S10000x16 .f32) (harg9 : arg9.IsWhole) (arg10 : Memref sig .tc .vmem S10000x16 .f32) (harg10 : arg10.IsWhole)
    (h1 : ¬ c1 i) (h2 : ¬ c2 i) (h3 : c3 i) (h4 : ¬ c4 i)
    (x1 : Vec F S400x10000 .f32) (x3 : Vec F S1x16 .f32) (xs : Vec F S10000x16 .f32) (hs : Vec F S10000x16 .f32)
    (E : Set ℕ) (K : PUnit → sProp 𝕄) :
    iprop(owns (c : Thread nD τ) arg9 fullShare xs ∗ owns (c : Thread nD τ) arg3 fullShare x1 ∗ owns (c : Thread nD τ) arg5 fullShare x3 ∗ owns (c : Thread nD τ) arg10 fullShare hs
        ∗ (iprop(owns (c : Thread nD τ) arg9 fullShare xs ∗ owns (c : Thread nD τ) arg3 fullShare x1 ∗ owns (c : Thread nD τ) arg5 fullShare x3 ∗ owns (c : Thread nD τ) arg10 fullShare (slab i h3 arg10 harg10 hs (k0_pay4 x1 xs x3))) -∗ K ⟨⟩))
      ⊢ wp frame (wpE (defs₀ (F := F)) Variants.none c none) E (cc0__gcn_kernel i arg2 harg2 arg3 harg3 arg4 harg4 arg5 harg5 arg6 harg6 arg7 harg7 arg8 harg8 arg9 harg9 arg10 harg10) K := by
  simp only [cc0__gcn_kernel_eq_skeleton]; unfold cc0__gcn_kernel_skel
  unfold owns
  unfold slab
  iintro ⟨⟨%f9, %hf9, H9⟩, ⟨%f1, %hf1, H1⟩, ⟨%f3, %hf3, H3⟩, ⟨%fh, %hfh, HH⟩, Hk⟩
  obtain rfl := harg9.eq_unread hf9; obtain rfl := harg3.eq_unread hf1; obtain rfl := harg5.eq_unread hf3; obtain rfl := harg10.eq_unread hfh
  sl_exec (disch := first | exact h1 | exact h2 | exact h3 | exact h4)
  sl_step
  iapply Hk
  have e9 : View.readAt (Elt F) arg9.view (Rect.unit (s := S10000x16) ![0, 0] S10000x16.size inb_S10000x16_S10000x16_0_0).toLoadRect (harg9.unread xs) = xs := by
    simp only [View.readAt_eq_ld, harg9.read_unread, View.ld_unit_zero (S := S10000x16) hz2]
  have e1 : View.readAt (Elt F) arg3.view (Rect.unit (s := S400x10000) ![0, 0] S400x10000.size inb_S400x10000_S400x10000_0_0).toLoadRect (harg3.unread x1) = x1 := by
    simp only [View.readAt_eq_ld, harg3.read_unread, View.ld_unit_zero (S := S400x10000) hz2]
  have e3 : View.readAt (Elt F) arg5.view (Rect.unit (s := S1x16) ![0, 0] S1x16.size inb_S1x16_S1x16_0_0).toLoadRect (harg5.unread x3) = x3 := by
    simp only [View.readAt_eq_ld, harg5.read_unread, View.ld_unit_zero (S := S1x16) hz2]
  rw [e9, e1, e3]
  isplitl [H9]
  · iexists _; isplitr
    · ipureintro; exact harg9.read_unread _
    iexact H9
  isplitl [H1]
  · iexists _; isplitr
    · ipureintro; exact harg3.read_unread _
    iexact H1
  isplitl [H3]
  · iexists _; isplitr
    · ipureintro; exact harg5.read_unread _
    iexact H3
  iexists _; isplitr
  · ipureintro; exact rfl
  iexact HH

set_option maxHeartbeats 1000000 in
/-- The first point of pass 1: relu of the second scratch times W2 goes to the first scratch, and rows of
    adj·(that) + b2 to the output block whatever it held. -/
theorem runC (c : Dev nD) (i : grid0.Coords) (arg2 : Memref sig .tc .vmem S10000x128 .f32) (harg2 : arg2.IsWhole) (arg3 : Memref sig .tc .vmem S400x10000 .f32) (harg3 : arg3.IsWhole) (arg4 : Memref sig .tc .vmem S128x16 .f32) (harg4 : arg4.IsWhole) (arg5 : Memref sig .tc .vmem S1x16 .f32) (harg5 : arg5.IsWhole) (arg6 : Memref sig .tc .vmem S16x16 .f32) (harg6 : arg6.IsWhole) (arg7 : Memref sig .tc .vmem S1x16 .f32) (harg7 : arg7.IsWhole) (arg8 : Memref sig .tc .vmem S400x16 .f32) (harg8 : arg8.IsWhole) (arg9 : Memref sig .tc .vmem S10000x16 .f32) (harg9 : arg9.IsWhole) (arg10 : Memref sig .tc .vmem S10000x16 .f32) (harg10 : arg10.IsWhole)
    (h1 : ¬ c1 i) (h2 : c2 i) (h3 : ¬ c3 i) (h4 : c4 i)
    (x4 : Vec F S16x16 .f32) (x1 : Vec F S400x10000 .f32) (x5 : Vec F S1x16 .f32) (xs : Vec F S10000x16 .f32) (hs : Vec F S10000x16 .f32)
    (E : Set ℕ) (K : PUnit → sProp 𝕄) :
    iprop(owns (c : Thread nD τ) arg10 fullShare hs ∗ owns (c : Thread nD τ) arg6 fullShare x4 ∗ owns (c : Thread nD τ) arg9 fullShare xs ∗ owns (c : Thread nD τ) arg3 fullShare x1 ∗ owns (c : Thread nD τ) arg7 fullShare x5 ∗ (∃ d, owns (c : Thread nD τ) arg8 fullShare d)
        ∗ (iprop(owns (c : Thread nD τ) arg10 fullShare hs ∗ owns (c : Thread nD τ) arg6 fullShare x4 ∗ owns (c : Thread nD τ) arg9 fullShare (k0_pay2 hs x4) ∗ owns (c : Thread nD τ) arg3 fullShare x1 ∗ owns (c : Thread nD τ) arg7 fullShare x5 ∗ owns (c : Thread nD τ) arg8 fullShare (k0_pay5 x1 (k0_pay2 hs x4) x5)) -∗ K ⟨⟩))
      ⊢ wp frame (wpE (defs₀ (F := F)) Variants.none c none) E (cc0__gcn_kernel i arg2 harg2 arg3 harg3 arg4 harg4 arg5 harg5 arg6 harg6 arg7 harg7 arg8 harg8 arg9 harg9 arg10 harg10) K := by
  simp only [cc0__gcn_kernel_eq_skeleton]; unfold cc0__gcn_kernel_skel
  unfold owns
  iintro ⟨⟨%fh, %hfh, HH⟩, ⟨%f4, %hf4, H4⟩, ⟨%f9, %hf9, H9⟩, ⟨%f1, %hf1, H1⟩, ⟨%f5, %hf5, H5⟩, ⟨%d8, %f8, -, H8⟩, Hk⟩
  obtain rfl := harg10.eq_unread hfh; obtain rfl := harg6.eq_unread hf4; obtain rfl := harg9.eq_unread hf9; obtain rfl := harg3.eq_unread hf1; obtain rfl := harg7.eq_unread hf5
  sl_exec (disch := first | exact h1 | exact h2 | exact h3 | exact h4)
  sl_step
  iapply Hk
  have e9 : View.read (Elt F) arg9.view (arg9.view.writes (Elt F) (harg9.unread xs) (runC.sl.H9_1 c arg6 harg6 arg10 harg10 x4 hs)) = k0_pay2 hs x4 := by
    sl_unfold_words
    rw [View.read_writes_eq_canon _ _ _ (fun y => ⟨_, List.mem_singleton_self _, View.mem_set_unit_zero hz2 inb_S10000x16_S10000x16_0_0 y⟩), View.canon_unit_zero hz2]
    simp only [View.readAt_eq_ld, harg10.read_unread, harg6.read_unread, View.ld_unit_zero (S := S10000x16) hz2, View.ld_unit_zero (S := S16x16) hz2]
  have e12 : runC.sl.v12 c arg6 harg6 arg9 arg10 harg10 x4 hs = k0_pay2 hs x4 := by
    sl_unfold_words
    rw [View.readCov_unit_zero _ hz2]
    simp only [View.readAt_eq_ld, harg10.read_unread, harg6.read_unread, View.ld_unit_zero (S := S10000x16) hz2, View.ld_unit_zero (S := S16x16) hz2]
  have e1 : View.readAt (Elt F) arg3.view (Rect.unit (s := S400x10000) ![0, 0] S400x10000.size inb_S400x10000_S400x10000_0_0).toLoadRect (harg3.unread x1) = x1 := by
    simp only [View.readAt_eq_ld, harg3.read_unread, View.ld_unit_zero (S := S400x10000) hz2]
  have e5 : View.readAt (Elt F) arg7.view (Rect.unit (s := S1x16) ![0, 0] S1x16.size inb_S1x16_S1x16_0_0).toLoadRect (harg7.unread x5) = x5 := by
    simp only [View.readAt_eq_ld, harg7.read_unread, View.ld_unit_zero (S := S1x16) hz2]
  have e8 : View.read (Elt F) arg8.view (arg8.view.writes (Elt F) f8 [⟨Rect.unit (s := S400x16) ![0, 0] S400x16.size inb_S400x16_S400x16_0_0, k0_pay5 x1 (k0_pay2 hs x4) x5⟩]) = k0_pay5 x1 (k0_pay2 hs x4) x5 := by
    rw [View.read_writes_eq_canon _ _ _ (fun y => ⟨_, List.mem_singleton_self _, View.mem_set_unit_zero hz2 inb_S400x16_S400x16_0_0 y⟩), View.canon_unit_zero hz2]
  rw [e12, e1, e5]
  isplitl [HH]
  · iexists _; isplitr
    · ipureintro; exact harg10.read_unread _
    iexact HH
  isplitl [H4]
  · iexists _; isplitr
    · ipureintro; exact harg6.read_unread _
    iexact H4
  isplitl [H9]
  · iexists _; isplitr
    · ipureintro; exact e9
    iexact H9
  isplitl [H1]
  · iexists _; isplitr
    · ipureintro; exact harg3.read_unread _
    iexact H1
  isplitl [H5]
  · iexists _; isplitr
    · ipureintro; exact harg7.read_unread _
    iexact H5
  iexists _; isplitr
  · ipureintro; exact e8
  iexact H8

set_option maxHeartbeats 1000000 in
/-- A later point of pass 1: rows of adj·support + b2 go to the output block whatever it held. -/
theorem runD (c : Dev nD) (i : grid0.Coords) (arg2 : Memref sig .tc .vmem S10000x128 .f32) (harg2 : arg2.IsWhole) (arg3 : Memref sig .tc .vmem S400x10000 .f32) (harg3 : arg3.IsWhole) (arg4 : Memref sig .tc .vmem S128x16 .f32) (harg4 : arg4.IsWhole) (arg5 : Memref sig .tc .vmem S1x16 .f32) (harg5 : arg5.IsWhole) (arg6 : Memref sig .tc .vmem S16x16 .f32) (harg6 : arg6.IsWhole) (arg7 : Memref sig .tc .vmem S1x16 .f32) (harg7 : arg7.IsWhole) (arg8 : Memref sig .tc .vmem S400x16 .f32) (harg8 : arg8.IsWhole) (arg9 : Memref sig .tc .vmem S10000x16 .f32) (harg9 : arg9.IsWhole) (arg10 : Memref sig .tc .vmem S10000x16 .f32) (harg10 : arg10.IsWhole)
    (h1 : ¬ c1 i) (h2 : ¬ c2 i) (h3 : ¬ c3 i) (h4 : c4 i)
    (x1 : Vec F S400x10000 .f32) (x5 : Vec F S1x16 .f32) (xs : Vec F S10000x16 .f32)
    (E : Set ℕ) (K : PUnit → sProp 𝕄) :
    iprop(owns (c : Thread nD τ) arg9 fullShare xs ∗ owns (c : Thread nD τ) arg3 fullShare x1 ∗ owns (c : Thread nD τ) arg7 fullShare x5 ∗ (∃ d, owns (c : Thread nD τ) arg8 fullShare d)
        ∗ (iprop(owns (c : Thread nD τ) arg9 fullShare xs ∗ owns (c : Thread nD τ) arg3 fullShare x1 ∗ owns (c : Thread nD τ) arg7 fullShare x5 ∗ owns (c : Thread nD τ) arg8 fullShare (k0_pay5 x1 xs x5)) -∗ K ⟨⟩))
      ⊢ wp frame (wpE (defs₀ (F := F)) Variants.none c none) E (cc0__gcn_kernel i arg2 harg2 arg3 harg3 arg4 harg4 arg5 harg5 arg6 harg6 arg7 harg7 arg8 harg8 arg9 harg9 arg10 harg10) K := by
  simp only [cc0__gcn_kernel_eq_skeleton]; unfold cc0__gcn_kernel_skel
  unfold owns
  iintro ⟨⟨%f9, %hf9, H9⟩, ⟨%f1, %hf1, H1⟩, ⟨%f5, %hf5, H5⟩, ⟨%d8, %f8, -, H8⟩, Hk⟩
  obtain rfl := harg9.eq_unread hf9; obtain rfl := harg3.eq_unread hf1; obtain rfl := harg7.eq_unread hf5
  sl_exec (disch := first | exact h1 | exact h2 | exact h3 | exact h4)
  sl_step
  iapply Hk
  have e9 : View.readAt (Elt F) arg9.view (Rect.unit (s := S10000x16) ![0, 0] S10000x16.size inb_S10000x16_S10000x16_0_0).toLoadRect (harg9.unread xs) = xs := by
    simp only [View.readAt_eq_ld, harg9.read_unread, View.ld_unit_zero (S := S10000x16) hz2]
  have e1 : View.readAt (Elt F) arg3.view (Rect.unit (s := S400x10000) ![0, 0] S400x10000.size inb_S400x10000_S400x10000_0_0).toLoadRect (harg3.unread x1) = x1 := by
    simp only [View.readAt_eq_ld, harg3.read_unread, View.ld_unit_zero (S := S400x10000) hz2]
  have e5 : View.readAt (Elt F) arg7.view (Rect.unit (s := S1x16) ![0, 0] S1x16.size inb_S1x16_S1x16_0_0).toLoadRect (harg7.unread x5) = x5 := by
    simp only [View.readAt_eq_ld, harg7.read_unread, View.ld_unit_zero (S := S1x16) hz2]
  have e8 : View.read (Elt F) arg8.view (arg8.view.writes (Elt F) f8 [⟨Rect.unit (s := S400x16) ![0, 0] S400x16.size inb_S400x16_S400x16_0_0, k0_pay5 x1 xs x5⟩]) = k0_pay5 x1 xs x5 := by
    rw [View.read_writes_eq_canon _ _ _ (fun y => ⟨_, List.mem_singleton_self _, View.mem_set_unit_zero hz2 inb_S400x16_S400x16_0_0 y⟩), View.canon_unit_zero hz2]
  rw [e9, e1, e5]
  isplitl [H9]
  · iexists _; isplitr
    · ipureintro; exact harg9.read_unread _
    iexact H9
  isplitl [H1]
  · iexists _; isplitr
    · ipureintro; exact harg3.read_unread _
    iexact H1
  isplitl [H5]
  · iexists _; isplitr
    · ipureintro; exact harg7.read_unread _
    iexact H5
  iexists _; isplitr
  · ipureintro; exact e8
  iexact H8

end Cert.Kernel.Body

end
-- ==== Proof.BitsBody.lean ====
/-
  The launch of the one kernel region: what the two scratch buffers hold between grid points, the body obligation at
  every point from the four runs, and the run of @main.

  Write S1 = x·W1 (as the matrix unit computes it), H = adj·S1 + b1 row block by row block, S2 = relu(H)·W2. Before
  point n the invariant says: for 1 ≤ n ≤ 25 the first scratch holds S1 and the second holds H on its first 400·n rows
  (anything below); from n = 26 on the first scratch holds S2. Pass 0 stores nothing into the output block, which is
  idle there and not written back; at point 25 + r the output block is rows [400 r, 400 r + 400) of adj·S2 + b2.
-/
import proofs.«127602_g13606456393732_cont_sun_m_1345_5_alg».proof.Proof.BitsRuns
import Idealize.ShloMosaic.Lib.Pipeline.FrameBody
import Idealize.ShloMosaic.Lib.Pipeline.Value
import Idealize.ShloMosaic.Lib.WritesUnit
import Idealize.ShloMosaic.Lib.ValueIdx
import Idealize.ShloMosaic.Lib.Ring
import Idealize.ShloMosaic.Lib.Tactic

set_option maxRecDepth 16384

noncomputable section

namespace Cert.Kernel.Body

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The conditions, the offset and the output window's schedule, decided over the grid -/

theorem hc1 : ∀ t : Fin cfg0.N, c1 (grid0.coords t) ↔ t.val = 0 :=
  (by decide +kernel : ∀ t : Fin grid0.N, c1 (grid0.coords t) ↔ t.val = 0)
theorem hc2 : ∀ t : Fin cfg0.N, c2 (grid0.coords t) ↔ t.val = 25 :=
  (by decide +kernel : ∀ t : Fin grid0.N, c2 (grid0.coords t) ↔ t.val = 25)
theorem hc3 : ∀ t : Fin cfg0.N, c3 (grid0.coords t) ↔ t.val < 25 :=
  (by decide +kernel : ∀ t : Fin grid0.N, c3 (grid0.coords t) ↔ t.val < 25)
theorem hc4 : ∀ t : Fin cfg0.N, c4 (grid0.coords t) ↔ 25 ≤ t.val :=
  (by decide +kernel : ∀ t : Fin grid0.N, c4 (grid0.coords t) ↔ 25 ≤ t.val)
/-- In pass 0 the row offset of the point's slice is 400 times the point's number. -/
theorem hoff : ∀ t : Fin cfg0.N, t.val < 25 → k0_off1 (grid0.coords t) = ![400 * t.val, 0] :=
  (by decide +kernel : ∀ t : Fin grid0.N, t.val < 25 → k0_off1 (grid0.coords t) = ![400 * t.val, 0])
theorem idle6 : ∀ t : Fin cfg0.N, t.val < 25 → cfg0.idle 6 (grid0.coords t) = true :=
  (by decide +kernel : ∀ t : Fin grid0.N, t.val < 25 → cfg0.idle 6 (grid0.coords t) = true)
theorem noflush6 : ∀ t : Fin cfg0.N, t.val < 25 → (cfg0.win 6).flush t = false :=
  (by decide +kernel : ∀ t : Fin grid0.N, t.val < 25 → win0_6.flush t = false)
theorem live6 : ∀ t : Fin cfg0.N, 25 ≤ t.val → cfg0.idle 6 (grid0.coords t) = false :=
  (by decide +kernel : ∀ t : Fin grid0.N, 25 ≤ t.val → cfg0.idle 6 (grid0.coords t) = false)
theorem live0 (t : Fin cfg0.N) : cfg0.idle 0 (grid0.coords t) = false := rfl
theorem live1 (t : Fin cfg0.N) : cfg0.idle 1 (grid0.coords t) = false := rfl
theorem live2 (t : Fin cfg0.N) : cfg0.idle 2 (grid0.coords t) = false := rfl
theorem live3 (t : Fin cfg0.N) : cfg0.idle 3 (grid0.coords t) = false := rfl
theorem live4 (t : Fin cfg0.N) : cfg0.idle 4 (grid0.coords t) = false := rfl
theorem live5 (t : Fin cfg0.N) : cfg0.idle 5 (grid0.coords t) = false := rfl

/-! ## The memrefs the body is called with -/

abbrev ms0 (t : Fin cfg0.N) : Memref sig .tc .vmem S10000x128 .f32 := win0_0.stage (cfg0.slots t 0)
abbrev hms0 (t : Fin cfg0.N) : (ms0 t).IsWhole := hstage0_0 ((cfg0.slots t 0).cast nbuf0_0)
abbrev ms1 (t : Fin cfg0.N) : Memref sig .tc .vmem S400x10000 .f32 := win0_1.stage (cfg0.slots t 1)
abbrev hms1 (t : Fin cfg0.N) : (ms1 t).IsWhole := hstage0_1 ((cfg0.slots t 1).cast nbuf0_1)
abbrev ms2 (t : Fin cfg0.N) : Memref sig .tc .vmem S128x16 .f32 := win0_2.stage (cfg0.slots t 2)
abbrev hms2 (t : Fin cfg0.N) : (ms2 t).IsWhole := hstage0_2 ((cfg0.slots t 2).cast nbuf0_2)
abbrev ms3 (t : Fin cfg0.N) : Memref sig .tc .vmem S1x16 .f32 := win0_3.stage (cfg0.slots t 3)
abbrev hms3 (t : Fin cfg0.N) : (ms3 t).IsWhole := hstage0_3 ((cfg0.slots t 3).cast nbuf0_3)
abbrev ms4 (t : Fin cfg0.N) : Memref sig .tc .vmem S16x16 .f32 := win0_4.stage (cfg0.slots t 4)
abbrev hms4 (t : Fin cfg0.N) : (ms4 t).IsWhole := hstage0_4 ((cfg0.slots t 4).cast nbuf0_4)
abbrev ms5 (t : Fin cfg0.N) : Memref sig .tc .vmem S1x16 .f32 := win0_5.stage (cfg0.slots t 5)
abbrev hms5 (t : Fin cfg0.N) : (ms5 t).IsWhole := hstage0_5 ((cfg0.slots t 5).cast nbuf0_5)
abbrev ms6 (t : Fin cfg0.N) : Memref sig .tc .vmem S400x16 .f32 := win0_6.stage (cfg0.slots t 6)
abbrev hms6 (t : Fin cfg0.N) : (ms6 t).IsWhole := hstage0_6 ((cfg0.slots t 6).cast nbuf0_6)
abbrev sc0 : Memref sig .tc .vmem S10000x16 .f32 := Memref.whole cc0_scratch0
abbrev sc1 : Memref sig .tc .vmem S10000x16 .f32 := Memref.whole cc0_scratch1

theorem PhiA0_eq (c : Dev nD) :
    (Pipeline.ΦA spec0 c : sProp 𝕄)
      = iprop(iprop((∃ d, owns (c : Thread nD τ) sc0 fullShare d) ∗ (∃ d, owns (c : Thread nD τ) sc1 fullShare d)) ∗ (∃ r, prngReg c r)) := by
  unfold Pipeline.ΦA; rw [scopedRest0_eq]; simp only [sc0, sc1, owns_whole]; try rfl

/-! ## What the scratch buffers and the output block hold -/

/-- The point of pass 0 that stores row `y 0` of the second scratch, and the row's place in that point's slice. -/
def rowPt (y : S10000x16.Idx) : Fin cfg0.N := ⟨(y 0).val / 400, by have := (y 0).isLt; show _ < 50; change (y 0).val < 10000 at this; omega⟩
def rowLoc (y : S10000x16.Idx) : S400x16.Idx := ValueIdx.ix2 (⟨(y 0).val % 400, Nat.mod_lt _ (by decide)⟩ : Fin 400) (⟨(y 1).val, (y 1).isLt⟩ : Fin 16)

/-- S1 = x·W1, as the first point stores it. -/
def S1 (c : Dev nD) : Vec F S10000x16 .f32 := k0_pay1 (iblk m c 0 ⟨0, by decide⟩) (iblk m c 2 ⟨0, by decide⟩)
/-- H = adj·S1 + b1, row block by row block as pass 0 stores it. -/
def Hfull (c : Dev nD) : Vec F S10000x16 .f32 := fun y => k0_pay4 (iblk m c 1 (rowPt y)) (S1 m c) (iblk m c 3 (rowPt y)) (rowLoc y)
/-- S2 = relu(H)·W2, as the first point of pass 1 stores it. -/
def S2 (c : Dev nD) : Vec F S10000x16 .f32 := k0_pay2 (Hfull m c) (iblk m c 4 ⟨25, by decide⟩)
/-- The output block a pass-1 point stores: its rows of adj·S2 + b2. -/
def outAt (c : Dev nD) (t : Fin cfg0.N) : Vec F S400x16 .f32 := k0_pay5 (iblk m c 1 t) (S2 m c) (iblk m c 5 t)

/-- What the two scratch buffers hold before point `n`. -/
def Inv (c : Dev nD) (n : ℕ) (s h : Vec F S10000x16 .f32) : Prop :=
  (1 ≤ n → n ≤ 25 → s = S1 m c ∧ ∀ y : S10000x16.Idx, (y 0).val < 400 * n → h y = Hfull m c y) ∧ (26 ≤ n → s = S2 m c)

/-- The region invariant before point `n`: the scratch buffers at contents the invariant relates, and the generator
    register at some state. -/
def Phi (c : Dev nD) (n : ℕ) : sProp 𝕄 :=
  iprop(∃ s h, owns (c : Thread nD τ) sc0 fullShare s ∗ owns (c : Thread nD τ) sc1 fullShare h ∗ (∃ r, prngReg c r) ∗ ⌜Inv m c n s h⌝)

/-! ## A row block written over the second scratch, read back -/

theorem slab_mem (t : Fin cfg0.N) (ht : t.val < 25) (h3 : c3 (grid0.coords t)) (hs : Vec F S10000x16 .f32) (w : Vec F S400x16 .f32)
    (y : S10000x16.Idx) (hy : 400 * t.val ≤ (y 0).val ∧ (y 0).val < 400 * t.val + 400) :
    slab (grid0.coords t) h3 sc1 (Memref.isWhole_whole _) hs w y = w (rowLoc y) := by
  unfold slab
  exact View.read_writes_cons_rows_of_mem sc1.view _ (k0_off1_inb (grid0.coords t) h3) w [] y (rowLoc y) (hoff t ht)
    (by show (y 0).val = 400 * t.val + (y 0).val % 400; omega) rfl

theorem slab_not_mem (t : Fin cfg0.N) (ht : t.val < 25) (h3 : c3 (grid0.coords t)) (hs : Vec F S10000x16 .f32) (w : Vec F S400x16 .f32)
    (y : S10000x16.Idx) (hy : (y 0).val < 400 * t.val ∨ 400 * t.val + 400 ≤ (y 0).val) :
    slab (grid0.coords t) h3 sc1 (Memref.isWhole_whole _) hs w y = hs y := by
  unfold slab
  refine (View.read_writes_cons_rows_of_not_mem sc1.view _ (k0_off1_inb (grid0.coords t) h3) w [] y (hoff t ht) (W := 400) rfl hy).trans ?_
  exact congrFun ((Memref.isWhole_whole cc0_scratch1).read_unread hs) y

/-- One more row block of H: if the second scratch holds H on its first 400·t rows, then with the point's slice written
    over it it holds H on its first 400·(t+1) rows. -/
theorem rows_step (c : Dev nD) (t : Fin cfg0.N) (ht : t.val < 25) (h3 : c3 (grid0.coords t)) (h : Vec F S10000x16 .f32)
    (hh : ∀ y : S10000x16.Idx, (y 0).val < 400 * t.val → h y = Hfull m c y) (y : S10000x16.Idx)
    (hy : (y 0).val < 400 * (t.val + 1)) :
    slab (grid0.coords t) h3 sc1 (Memref.isWhole_whole _) h (k0_pay4 (iblk m c 1 t) (S1 m c) (iblk m c 3 t)) y = Hfull m c y := by
  by_cases hlt : (y 0).val < 400 * t.val
  · rw [slab_not_mem t ht h3 h _ y (.inl hlt)]; exact hh y hlt
  · rw [slab_mem t ht h3 h _ y ⟨by omega, by omega⟩]
    have e : rowPt y = t := Fin.ext (by show (y 0).val / 400 = t.val; omega)
    unfold Hfull; rw [e]

/-! ## The pipeline's proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outAt m c t
  Φ t := Phi m c t.val
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = outAt m c t := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

theorem leaves_in (c : Dev nD) (t : Fin cfg0.N) :
    (dats m 0 c).leavesExact 0 t = owns (c : Thread nD τ) (ms0 t) fullShare (iblk m c 0 t) ∧
    (dats m 0 c).leavesExact 1 t = owns (c : Thread nD τ) (ms1 t) fullShare (iblk m c 1 t) ∧
    (dats m 0 c).leavesExact 2 t = owns (c : Thread nD τ) (ms2 t) fullShare (iblk m c 2 t) ∧
    (dats m 0 c).leavesExact 3 t = owns (c : Thread nD τ) (ms3 t) fullShare (iblk m c 3 t) ∧
    (dats m 0 c).leavesExact 4 t = owns (c : Thread nD τ) (ms4 t) fullShare (iblk m c 4 t) ∧
    (dats m 0 c).leavesExact 5 t = owns (c : Thread nD τ) (ms5 t) fullShare (iblk m c 5 t) := by
  refine ⟨?_, ?_, ?_, ?_, ?_, ?_⟩
  · unfold Dat.leavesExact; rw [live0 t, after0]
  · unfold Dat.leavesExact; rw [live1 t, after1]
  · unfold Dat.leavesExact; rw [live2 t, after2]
  · unfold Dat.leavesExact; rw [live3 t, after3]
  · unfold Dat.leavesExact; rw [live4 t, after4]
  · unfold Dat.leavesExact; rw [live5 t, after5]

set_option maxHeartbeats 1600000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5]
  rw [show (dats m 0 c).owesAt () t.succ = (dats m 0 c).owesAt () t.castSucc from rfl]
  rw [show (dats m 0 c).Φ t.succ = Phi m c (t.val + 1) from rfl, show (dats m 0 c).Φ t.castSucc = Phi m c t.val from rfl]
  obtain ⟨l0, l1, l2, l3, l4, l5⟩ := leaves_in m c t
  rw [l0, l1, l2, l3, l4, l5]
  have hN : t.val < 50 := lt_of_lt_of_eq t.isLt (show cfg0.N = 50 from N_0)
  unfold Phi
  by_cases hp : t.val < 25
  · -- pass 0: the output block is idle and not written back
    rw [Dat.leavesExact_idle (dats m 0 c) 6 t (idle6 t hp) (noflush6 t hp)]
    have h3 : c3 (grid0.coords t) := (hc3 t).mpr hp
    have h2 : ¬ c2 (grid0.coords t) := fun h => by have := (hc2 t).mp h; omega
    have h4 : ¬ c4 (grid0.coords t) := fun h => by have := (hc4 t).mp h; omega
    iintro ⟨⟨%s, %h, HS, HH, Hg, %hI⟩, Ho, ⟨%d0, H0⟩, ⟨%d1, H1⟩, ⟨%d2, H2⟩, ⟨%d3, H3⟩, ⟨%d4, H4⟩, ⟨%d5, H5⟩, H6⟩
    by_cases h0 : t.val = 0
    · obtain rfl : t = ⟨0, by decide⟩ := Fin.ext h0
      iapply (runA c _ _ (hms0 _) _ (hms1 _) _ (hms2 _) _ (hms3 _) _ (hms4 _) _ (hms5 _) _ (hms6 _) sc0 (Memref.isWhole_whole _) sc1 (Memref.isWhole_whole _)
        ((hc1 _).mpr rfl) h2 h3 h4 (iblk m c 0 _) (iblk m c 2 _) (iblk m c 1 _) (iblk m c 3 _) h Set.univ _)
      isplitl [H0]; · iexact H0
      isplitl [H2]; · iexact H2
      isplitl [HS]; · iexists _; iexact HS
      isplitl [H1]; · iexact H1
      isplitl [H3]; · iexact H3
      isplitl [HH]; · iexact HH
      iintro ⟨H0, H2, HS, H1, H3, HH⟩
      isplitl [HS HH Hg]
      · iexists _, _
        isplitl [HS]; · iexact HS
        isplitl [HH]; · iexact HH
        isplitl [Hg]; · iexact Hg
        ipureintro
        refine ⟨fun _ _ => ⟨rfl, fun y hy => ?_⟩, fun h26 => by omega⟩
        exact rows_step m c ⟨0, by decide⟩ hp h3 h (fun y hy => by omega) y hy
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
    · have h1 : ¬ c1 (grid0.coords t) := fun h => h0 ((hc1 t).mp h)
      obtain ⟨rfl, hrows⟩ := hI.1 (by omega) (by omega)
      iapply (runB c _ _ (hms0 _) _ (hms1 _) _ (hms2 _) _ (hms3 _) _ (hms4 _) _ (hms5 _) _ (hms6 _) sc0 (Memref.isWhole_whole _) sc1 (Memref.isWhole_whole _)
        h1 h2 h3 h4 (iblk m c 1 t) (iblk m c 3 t) (S1 m c) h Set.univ _)
      isplitl [HS]; · iexact HS
      isplitl [H1]; · iexact H1
      isplitl [H3]; · iexact H3
      isplitl [HH]; · iexact HH
      iintro ⟨HS, H1, H3, HH⟩
      isplitl [HS HH Hg]
      · iexists _, _
        isplitl [HS]; · iexact HS
        isplitl [HH]; · iexact HH
        isplitl [Hg]; · iexact Hg
        ipureintro
        exact ⟨fun _ _ => ⟨rfl, fun y hy => rows_step m c t hp h3 h hrows y hy⟩, fun h26 => by omega⟩
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
  · -- pass 1: the output block is stored whole
    have hp' : 25 ≤ t.val := by omega
    rw [show (dats m 0 c).leavesExact 6 t = owns (c : Thread nD τ) (ms6 t) fullShare ((dats m 0 c).after 6 t) from by
      unfold Dat.leavesExact; rw [live6 t hp'], after6]
    have h1 : ¬ c1 (grid0.coords t) := fun h => by have := (hc1 t).mp h; omega
    have h3 : ¬ c3 (grid0.coords t) := fun h => by have := (hc3 t).mp h; omega
    have h4 : c4 (grid0.coords t) := (hc4 t).mpr hp'
    iintro ⟨⟨%s, %h, HS, HH, Hg, %hI⟩, Ho, ⟨%d0, H0⟩, ⟨%d1, H1⟩, ⟨%d2, H2⟩, ⟨%d3, H3⟩, ⟨%d4, H4⟩, ⟨%d5, H5⟩, H6⟩
    by_cases h25 : t.val = 25
    · obtain rfl : t = ⟨25, by decide⟩ := Fin.ext h25
      obtain ⟨rfl, hrows⟩ := hI.1 (by decide) (by decide)
      obtain rfl : h = Hfull m c := funext fun y => hrows y (by have := (y 0).isLt; change (y 0).val < 10000 at this; omega)
      iapply (runC c _ _ (hms0 _) _ (hms1 _) _ (hms2 _) _ (hms3 _) _ (hms4 _) _ (hms5 _) _ (hms6 _) sc0 (Memref.isWhole_whole _) sc1 (Memref.isWhole_whole _)
        h1 ((hc2 _).mpr rfl) h3 h4 (iblk m c 4 _) (iblk m c 1 _) (iblk m c 5 _) (S1 m c) (Hfull m c) Set.univ _)
      isplitl [HH]; · iexact HH
      isplitl [H4]; · iexact H4
      isplitl [HS]; · iexact HS
      isplitl [H1]; · iexact H1
      isplitl [H5]; · iexact H5
      isplitl [H6]; · icases H6 with ⟨%d6, H6⟩; iexists _; iexact H6
      iintro ⟨HH, H4, HS, H1, H5, H6⟩
      isplitl [HS HH Hg]
      · iexists _, _
        isplitl [HS]; · iexact HS
        isplitl [HH]; · iexact HH
        isplitl [Hg]; · iexact Hg
        ipureintro
        exact ⟨fun _ h25' => by omega, fun _ => rfl⟩
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
    · have h2 : ¬ c2 (grid0.coords t) := fun h => h25 ((hc2 t).mp h)
      obtain rfl := hI.2 (by omega)
      iapply (runD c _ _ (hms0 _) _ (hms1 _) _ (hms2 _) _ (hms3 _) _ (hms4 _) _ (hms5 _) _ (hms6 _) sc0 (Memref.isWhole_whole _) sc1 (Memref.isWhole_whole _)
        h1 h2 h3 h4 (iblk m c 1 t) (iblk m c 5 t) (S2 m c) Set.univ _)
      isplitl [HS]; · iexact HS
      isplitl [H1]; · iexact H1
      isplitl [H5]; · iexact H5
      isplitl [H6]; · icases H6 with ⟨%d6, H6⟩; iexists _; iexact H6
      iintro ⟨HS, H1, H5, H6⟩
      isplitl [HS HH Hg]
      · iexists _, _
        isplitl [HS]; · iexact HS
        isplitl [HH]; · iexact HH
        isplitl [Hg]; · iexact Hg
        ipureintro
        exact ⟨fun _ h25' => by omega, fun _ => rfl⟩
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6

theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = Phi m c 0 from rfl, PhiA0_eq]
  unfold Phi
  iintro ⟨⟨⟨%s, HS⟩, ⟨%h, HH⟩⟩, Hg⟩
  iexists s, h
  isplitl [HS]; · iexact HS
  isplitl [HH]; · iexact HH
  isplitl [Hg]; · iexact Hg
  ipureintro; exact ⟨fun h1 => by omega, fun h26 => by omega⟩

theorem hout (c : Dev nD) : (dats m 0 c).Φ (Fin.last cfg0.N) ⊢ Pipeline.ΦA spec0 c := by
  rw [show (dats m 0 c).Φ (Fin.last cfg0.N) = Phi m c (Fin.last cfg0.N).val from rfl, PhiA0_eq]
  unfold Phi
  iintro ⟨%s, %h, HS, HH, Hg, -⟩
  isplitl [HS HH]
  · isplitl [HS]
    · iexists _; iexact HS
    iexists _; iexact HH
  iexact Hg

/-! ## The run and the frame -/

set_option backward.isDefEq.respectTransparency.types false in
/-- Every weakly fair execution of @main terminates; every array of the pipeline ends at what the library computes from
    the proof data, every other unscoped buffer as the region found it. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The frame: the program runs to the end, faults nowhere, and its argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

end Cert.Kernel.Body

end
-- ==== Proof.IdealRuns.lean ====
/-
  The kernel body run once per control case, on whole staging memrefs at named contents.

  The grid is (pass, row block) = (2, 25). Four control cases partition its fifty points: the first point of
  pass 0 (the support x·W1 is stored into the first scratch, then the row block of adj·support + b1 is stored into the
  rows of the second scratch the point's coordinate selects), the later points of pass 0 (only that row block), the
  first point of pass 1 (the second scratch is read whole, relu'd, multiplied by W2 into the first scratch, then the
  row block of adj·support + b2 goes to the output block) and the later points of pass 1 (only that output block).
  Each run states what every buffer the case touches holds afterwards, through the body's named payloads.
-/
import proofs.«127602_g13606456393732_cont_sun_m_1345_5_alg».proof.Proof.Gen.KernelIdeal.Frame
import proofs.«127602_g13606456393732_cont_sun_m_1345_5_alg».proof.Proof.Gen.KernelIdeal.Skeleton
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Body

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The four branch conditions of the body, over the grid coordinates: the first point of pass 0, the first point
    of pass 1, pass 0, pass 1. -/
abbrev c1 (i : grid0.Coords) : Prop := Scalar.cmpi .ne (Scalar.extui (Scalar.andi (Scalar.cmpi .eq (BitVec.ofNat 32 (i 0).val) 0#32) (Scalar.cmpi .eq (BitVec.ofNat 32 (i 1).val) 0#32))) 0#32 = 1#1
abbrev c2 (i : grid0.Coords) : Prop := Scalar.cmpi .ne (Scalar.extui (Scalar.andi (Scalar.cmpi .eq (BitVec.ofNat 32 (i 0).val) 1#32) (Scalar.cmpi .eq (BitVec.ofNat 32 (i 1).val) 0#32))) 0#32 = 1#1
abbrev c3 (i : grid0.Coords) : Prop := k0_cond3 i = 1#1
abbrev c4 (i : grid0.Coords) : Prop := k0_cond4 i = 1#1

theorem hz2 : (![0, 0] : Fin 2 → ℕ) = fun _ => 0 := by funext a; fin_cases a <;> rfl

/-- The second scratch after a pass-0 point: the point's row block written over what it held. -/
def slab (i : grid0.Coords) (h3 : c3 i) (arg10 : Memref sig .tc .vmem S10000x16 .f32) (harg10 : arg10.IsWhole)
    (hs : Vec F S10000x16 .f32) (w : Vec F S400x16 .f32) : Vec F S10000x16 .f32 :=
  arg10.view.read (Elt F) (arg10.view.writes (Elt F) (harg10.unread hs)
    [⟨Rect.unit (s := S10000x16) (k0_off1 i) S400x16.size (k0_off1_inb i h3), w⟩])

set_option maxHeartbeats 1000000 in
/-- The first point of pass 0: x·W1 goes to the first scratch whatever it held, and rows of adj·(x·W1) + b1 to the
    second scratch's rows at the point's offset. -/
theorem runA (c : Dev nD) (i : grid0.Coords) (arg2 : Memref sig .tc .vmem S10000x128 .f32) (harg2 : arg2.IsWhole) (arg3 : Memref sig .tc .vmem S400x10000 .f32) (harg3 : arg3.IsWhole) (arg4 : Memref sig .tc .vmem S128x16 .f32) (harg4 : arg4.IsWhole) (arg5 : Memref sig .tc .vmem S1x16 .f32) (harg5 : arg5.IsWhole) (arg6 : Memref sig .tc .vmem S16x16 .f32) (harg6 : arg6.IsWhole) (arg7 : Memref sig .tc .vmem S1x16 .f32) (harg7 : arg7.IsWhole) (arg8 : Memref sig .tc .vmem S400x16 .f32) (harg8 : arg8.IsWhole) (arg9 : Memref sig .tc .vmem S10000x16 .f32) (harg9 : arg9.IsWhole) (arg10 : Memref sig .tc .vmem S10000x16 .f32) (harg10 : arg10.IsWhole)
    (h1 : c1 i) (h2 : ¬ c2 i) (h3 : c3 i) (h4 : ¬ c4 i)
    (x0 : Vec F S10000x128 .f32) (x2 : Vec F S128x16 .f32) (x1 : Vec F S400x10000 .f32) (x3 : Vec F S1x16 .f32) (hs : Vec F S10000x16 .f32)
    (E : Set ℕ) (K : PUnit → sProp 𝕄) :
    iprop(owns (c : Thread nD τ) arg2 fullShare x0 ∗ owns (c : Thread nD τ) arg4 fullShare x2 ∗ (∃ d, owns (c : Thread nD τ) arg9 fullShare d) ∗ owns (c : Thread nD τ) arg3 fullShare x1 ∗ owns (c : Thread nD τ) arg5 fullShare x3 ∗ owns (c : Thread nD τ) arg10 fullShare hs
        ∗ (iprop(owns (c : Thread nD τ) arg2 fullShare x0 ∗ owns (c : Thread nD τ) arg4 fullShare x2 ∗ owns (c : Thread nD τ) arg9 fullShare (k0_pay1 x0 x2) ∗ owns (c : Thread nD τ) arg3 fullShare x1 ∗ owns (c : Thread nD τ) arg5 fullShare x3 ∗ owns (c : Thread nD τ) arg10 fullShare (slab i h3 arg10 harg10 hs (k0_pay4 x1 (k0_pay1 x0 x2) x3))) -∗ K ⟨⟩))
      ⊢ wp frame (wpE (defs₀ (F := F)) Variants.none c none) E (cc0__gcn_kernel i arg2 harg2 arg3 harg3 arg4 harg4 arg5 harg5 arg6 harg6 arg7 harg7 arg8 harg8 arg9 harg9 arg10 harg10) K := by
  simp only [cc0__gcn_kernel_eq_skeleton]; unfold cc0__gcn_kernel_skel
  unfold owns
  unfold slab
  iintro ⟨⟨%f0, %hf0, H0⟩, ⟨%f2, %hf2, H2⟩, ⟨%d9, %f9, -, H9⟩, ⟨%f1, %hf1, H1⟩, ⟨%f3, %hf3, H3⟩, ⟨%fh, %hfh, HH⟩, Hk⟩
  obtain rfl := harg2.eq_unread hf0; obtain rfl := harg4.eq_unread hf2; obtain rfl := harg3.eq_unread hf1; obtain rfl := harg5.eq_unread hf3; obtain rfl := harg10.eq_unread hfh
  sl_exec (disch := first | exact h1 | exact h2 | exact h3 | exact h4)
  sl_step
  iapply Hk
  have e9 : View.read (Elt F) arg9.view (arg9.view.writes (Elt F) f9 (runA.sl.H9_1 c arg2 harg2 arg4 harg4 x0 x2)) = k0_pay1 x0 x2 := by
    sl_unfold_words
    rw [View.read_writes_eq_canon _ _ _ (fun y => ⟨_, List.mem_singleton_self _, View.mem_set_unit_zero hz2 inb_S10000x16_S10000x16_0_0 y⟩), View.canon_unit_zero hz2]
    simp only [View.readAt_eq_ld, harg2.read_unread, harg4.read_unread, View.ld_unit_zero (S := S10000x128) hz2, View.ld_unit_zero (S := S128x16) hz2]
  have e12 : runA.sl.v12 c arg2 harg2 arg4 harg4 arg9 x0 x2 = k0_pay1 x0 x2 := by
    sl_unfold_words
    rw [View.readCov_unit_zero _ hz2]
    simp only [View.readAt_eq_ld, harg2.read_unread, harg4.read_unread, View.ld_unit_zero (S := S10000x128) hz2, View.ld_unit_zero (S := S128x16) hz2]
  have e1 : View.readAt (Elt F) arg3.view (Rect.unit (s := S400x10000) ![0, 0] S400x10000.size inb_S400x10000_S400x10000_0_0).toLoadRect (harg3.unread x1) = x1 := by
    simp only [View.readAt_eq_ld, harg3.read_unread, View.ld_unit_zero (S := S400x10000) hz2]
  have e3 : View.readAt (Elt F) arg5.view (Rect.unit (s := S1x16) ![0, 0] S1x16.size inb_S1x16_S1x16_0_0).toLoadRect (harg5.unread x3) = x3 := by
    simp only [View.readAt_eq_ld, harg5.read_unread, View.ld_unit_zero (S := S1x16) hz2]
  rw [e12, e1, e3]
  isplitl [H0]
  · iexists _; isplitr
    · ipureintro; exact harg2.read_unread _
    iexact H0
  isplitl [H2]
  · iexists _; isplitr
    · ipureintro; exact harg4.read_unread _
    iexact H2
  isplitl [H9]
  · iexists _; isplitr
    · ipureintro; exact e9
    iexact H9
  isplitl [H1]
  · iexists _; isplitr
    · ipureintro; exact harg3.read_unread _
    iexact H1
  isplitl [H3]
  · iexists _; isplitr
    · ipureintro; exact harg5.read_unread _
    iexact H3
  iexists _; isplitr
  · ipureintro; exact rfl
  iexact HH

set_option maxHeartbeats 1000000 in
/-- A later point of pass 0: rows of adj·support + b1 go to the second scratch's rows at the point's offset. -/
theorem runB (c : Dev nD) (i : grid0.Coords) (arg2 : Memref sig .tc .vmem S10000x128 .f32) (harg2 : arg2.IsWhole) (arg3 : Memref sig .tc .vmem S400x10000 .f32) (harg3 : arg3.IsWhole) (arg4 : Memref sig .tc .vmem S128x16 .f32) (harg4 : arg4.IsWhole) (arg5 : Memref sig .tc .vmem S1x16 .f32) (harg5 : arg5.IsWhole) (arg6 : Memref sig .tc .vmem S16x16 .f32) (harg6 : arg6.IsWhole) (arg7 : Memref sig .tc .vmem S1x16 .f32) (harg7 : arg7.IsWhole) (arg8 : Memref sig .tc .vmem S400x16 .f32) (harg8 : arg8.IsWhole) (arg9 : Memref sig .tc .vmem S10000x16 .f32) (harg9 : arg9.IsWhole) (arg10 : Memref sig .tc .vmem S10000x16 .f32) (harg10 : arg10.IsWhole)
    (h1 : ¬ c1 i) (h2 : ¬ c2 i) (h3 : c3 i) (h4 : ¬ c4 i)
    (x1 : Vec F S400x10000 .f32) (x3 : Vec F S1x16 .f32) (xs : Vec F S10000x16 .f32) (hs : Vec F S10000x16 .f32)
    (E : Set ℕ) (K : PUnit → sProp 𝕄) :
    iprop(owns (c : Thread nD τ) arg9 fullShare xs ∗ owns (c : Thread nD τ) arg3 fullShare x1 ∗ owns (c : Thread nD τ) arg5 fullShare x3 ∗ owns (c : Thread nD τ) arg10 fullShare hs
        ∗ (iprop(owns (c : Thread nD τ) arg9 fullShare xs ∗ owns (c : Thread nD τ) arg3 fullShare x1 ∗ owns (c : Thread nD τ) arg5 fullShare x3 ∗ owns (c : Thread nD τ) arg10 fullShare (slab i h3 arg10 harg10 hs (k0_pay4 x1 xs x3))) -∗ K ⟨⟩))
      ⊢ wp frame (wpE (defs₀ (F := F)) Variants.none c none) E (cc0__gcn_kernel i arg2 harg2 arg3 harg3 arg4 harg4 arg5 harg5 arg6 harg6 arg7 harg7 arg8 harg8 arg9 harg9 arg10 harg10) K := by
  simp only [cc0__gcn_kernel_eq_skeleton]; unfold cc0__gcn_kernel_skel
  unfold owns
  unfold slab
  iintro ⟨⟨%f9, %hf9, H9⟩, ⟨%f1, %hf1, H1⟩, ⟨%f3, %hf3, H3⟩, ⟨%fh, %hfh, HH⟩, Hk⟩
  obtain rfl := harg9.eq_unread hf9; obtain rfl := harg3.eq_unread hf1; obtain rfl := harg5.eq_unread hf3; obtain rfl := harg10.eq_unread hfh
  sl_exec (disch := first | exact h1 | exact h2 | exact h3 | exact h4)
  sl_step
  iapply Hk
  have e9 : View.readAt (Elt F) arg9.view (Rect.unit (s := S10000x16) ![0, 0] S10000x16.size inb_S10000x16_S10000x16_0_0).toLoadRect (harg9.unread xs) = xs := by
    simp only [View.readAt_eq_ld, harg9.read_unread, View.ld_unit_zero (S := S10000x16) hz2]
  have e1 : View.readAt (Elt F) arg3.view (Rect.unit (s := S400x10000) ![0, 0] S400x10000.size inb_S400x10000_S400x10000_0_0).toLoadRect (harg3.unread x1) = x1 := by
    simp only [View.readAt_eq_ld, harg3.read_unread, View.ld_unit_zero (S := S400x10000) hz2]
  have e3 : View.readAt (Elt F) arg5.view (Rect.unit (s := S1x16) ![0, 0] S1x16.size inb_S1x16_S1x16_0_0).toLoadRect (harg5.unread x3) = x3 := by
    simp only [View.readAt_eq_ld, harg5.read_unread, View.ld_unit_zero (S := S1x16) hz2]
  rw [e9, e1, e3]
  isplitl [H9]
  · iexists _; isplitr
    · ipureintro; exact harg9.read_unread _
    iexact H9
  isplitl [H1]
  · iexists _; isplitr
    · ipureintro; exact harg3.read_unread _
    iexact H1
  isplitl [H3]
  · iexists _; isplitr
    · ipureintro; exact harg5.read_unread _
    iexact H3
  iexists _; isplitr
  · ipureintro; exact rfl
  iexact HH

set_option maxHeartbeats 1000000 in
/-- The first point of pass 1: relu of the second scratch times W2 goes to the first scratch, and rows of
    adj·(that) + b2 to the output block whatever it held. -/
theorem runC (c : Dev nD) (i : grid0.Coords) (arg2 : Memref sig .tc .vmem S10000x128 .f32) (harg2 : arg2.IsWhole) (arg3 : Memref sig .tc .vmem S400x10000 .f32) (harg3 : arg3.IsWhole) (arg4 : Memref sig .tc .vmem S128x16 .f32) (harg4 : arg4.IsWhole) (arg5 : Memref sig .tc .vmem S1x16 .f32) (harg5 : arg5.IsWhole) (arg6 : Memref sig .tc .vmem S16x16 .f32) (harg6 : arg6.IsWhole) (arg7 : Memref sig .tc .vmem S1x16 .f32) (harg7 : arg7.IsWhole) (arg8 : Memref sig .tc .vmem S400x16 .f32) (harg8 : arg8.IsWhole) (arg9 : Memref sig .tc .vmem S10000x16 .f32) (harg9 : arg9.IsWhole) (arg10 : Memref sig .tc .vmem S10000x16 .f32) (harg10 : arg10.IsWhole)
    (h1 : ¬ c1 i) (h2 : c2 i) (h3 : ¬ c3 i) (h4 : c4 i)
    (x4 : Vec F S16x16 .f32) (x1 : Vec F S400x10000 .f32) (x5 : Vec F S1x16 .f32) (xs : Vec F S10000x16 .f32) (hs : Vec F S10000x16 .f32)
    (E : Set ℕ) (K : PUnit → sProp 𝕄) :
    iprop(owns (c : Thread nD τ) arg10 fullShare hs ∗ owns (c : Thread nD τ) arg6 fullShare x4 ∗ owns (c : Thread nD τ) arg9 fullShare xs ∗ owns (c : Thread nD τ) arg3 fullShare x1 ∗ owns (c : Thread nD τ) arg7 fullShare x5 ∗ (∃ d, owns (c : Thread nD τ) arg8 fullShare d)
        ∗ (iprop(owns (c : Thread nD τ) arg10 fullShare hs ∗ owns (c : Thread nD τ) arg6 fullShare x4 ∗ owns (c : Thread nD τ) arg9 fullShare (k0_pay2 hs x4) ∗ owns (c : Thread nD τ) arg3 fullShare x1 ∗ owns (c : Thread nD τ) arg7 fullShare x5 ∗ owns (c : Thread nD τ) arg8 fullShare (k0_pay5 x1 (k0_pay2 hs x4) x5)) -∗ K ⟨⟩))
      ⊢ wp frame (wpE (defs₀ (F := F)) Variants.none c none) E (cc0__gcn_kernel i arg2 harg2 arg3 harg3 arg4 harg4 arg5 harg5 arg6 harg6 arg7 harg7 arg8 harg8 arg9 harg9 arg10 harg10) K := by
  simp only [cc0__gcn_kernel_eq_skeleton]; unfold cc0__gcn_kernel_skel
  unfold owns
  iintro ⟨⟨%fh, %hfh, HH⟩, ⟨%f4, %hf4, H4⟩, ⟨%f9, %hf9, H9⟩, ⟨%f1, %hf1, H1⟩, ⟨%f5, %hf5, H5⟩, ⟨%d8, %f8, -, H8⟩, Hk⟩
  obtain rfl := harg10.eq_unread hfh; obtain rfl := harg6.eq_unread hf4; obtain rfl := harg9.eq_unread hf9; obtain rfl := harg3.eq_unread hf1; obtain rfl := harg7.eq_unread hf5
  sl_exec (disch := first | exact h1 | exact h2 | exact h3 | exact h4)
  sl_step
  iapply Hk
  have e9 : View.read (Elt F) arg9.view (arg9.view.writes (Elt F) (harg9.unread xs) (runC.sl.H9_1 c arg6 harg6 arg10 harg10 x4 hs)) = k0_pay2 hs x4 := by
    sl_unfold_words
    rw [View.read_writes_eq_canon _ _ _ (fun y => ⟨_, List.mem_singleton_self _, View.mem_set_unit_zero hz2 inb_S10000x16_S10000x16_0_0 y⟩), View.canon_unit_zero hz2]
    simp only [View.readAt_eq_ld, harg10.read_unread, harg6.read_unread, View.ld_unit_zero (S := S10000x16) hz2, View.ld_unit_zero (S := S16x16) hz2]
  have e12 : runC.sl.v12 c arg6 harg6 arg9 arg10 harg10 x4 hs = k0_pay2 hs x4 := by
    sl_unfold_words
    rw [View.readCov_unit_zero _ hz2]
    simp only [View.readAt_eq_ld, harg10.read_unread, harg6.read_unread, View.ld_unit_zero (S := S10000x16) hz2, View.ld_unit_zero (S := S16x16) hz2]
  have e1 : View.readAt (Elt F) arg3.view (Rect.unit (s := S400x10000) ![0, 0] S400x10000.size inb_S400x10000_S400x10000_0_0).toLoadRect (harg3.unread x1) = x1 := by
    simp only [View.readAt_eq_ld, harg3.read_unread, View.ld_unit_zero (S := S400x10000) hz2]
  have e5 : View.readAt (Elt F) arg7.view (Rect.unit (s := S1x16) ![0, 0] S1x16.size inb_S1x16_S1x16_0_0).toLoadRect (harg7.unread x5) = x5 := by
    simp only [View.readAt_eq_ld, harg7.read_unread, View.ld_unit_zero (S := S1x16) hz2]
  have e8 : View.read (Elt F) arg8.view (arg8.view.writes (Elt F) f8 [⟨Rect.unit (s := S400x16) ![0, 0] S400x16.size inb_S400x16_S400x16_0_0, k0_pay5 x1 (k0_pay2 hs x4) x5⟩]) = k0_pay5 x1 (k0_pay2 hs x4) x5 := by
    rw [View.read_writes_eq_canon _ _ _ (fun y => ⟨_, List.mem_singleton_self _, View.mem_set_unit_zero hz2 inb_S400x16_S400x16_0_0 y⟩), View.canon_unit_zero hz2]
  rw [e12, e1, e5]
  isplitl [HH]
  · iexists _; isplitr
    · ipureintro; exact harg10.read_unread _
    iexact HH
  isplitl [H4]
  · iexists _; isplitr
    · ipureintro; exact harg6.read_unread _
    iexact H4
  isplitl [H9]
  · iexists _; isplitr
    · ipureintro; exact e9
    iexact H9
  isplitl [H1]
  · iexists _; isplitr
    · ipureintro; exact harg3.read_unread _
    iexact H1
  isplitl [H5]
  · iexists _; isplitr
    · ipureintro; exact harg7.read_unread _
    iexact H5
  iexists _; isplitr
  · ipureintro; exact e8
  iexact H8

set_option maxHeartbeats 1000000 in
/-- A later point of pass 1: rows of adj·support + b2 go to the output block whatever it held. -/
theorem runD (c : Dev nD) (i : grid0.Coords) (arg2 : Memref sig .tc .vmem S10000x128 .f32) (harg2 : arg2.IsWhole) (arg3 : Memref sig .tc .vmem S400x10000 .f32) (harg3 : arg3.IsWhole) (arg4 : Memref sig .tc .vmem S128x16 .f32) (harg4 : arg4.IsWhole) (arg5 : Memref sig .tc .vmem S1x16 .f32) (harg5 : arg5.IsWhole) (arg6 : Memref sig .tc .vmem S16x16 .f32) (harg6 : arg6.IsWhole) (arg7 : Memref sig .tc .vmem S1x16 .f32) (harg7 : arg7.IsWhole) (arg8 : Memref sig .tc .vmem S400x16 .f32) (harg8 : arg8.IsWhole) (arg9 : Memref sig .tc .vmem S10000x16 .f32) (harg9 : arg9.IsWhole) (arg10 : Memref sig .tc .vmem S10000x16 .f32) (harg10 : arg10.IsWhole)
    (h1 : ¬ c1 i) (h2 : ¬ c2 i) (h3 : ¬ c3 i) (h4 : c4 i)
    (x1 : Vec F S400x10000 .f32) (x5 : Vec F S1x16 .f32) (xs : Vec F S10000x16 .f32)
    (E : Set ℕ) (K : PUnit → sProp 𝕄) :
    iprop(owns (c : Thread nD τ) arg9 fullShare xs ∗ owns (c : Thread nD τ) arg3 fullShare x1 ∗ owns (c : Thread nD τ) arg7 fullShare x5 ∗ (∃ d, owns (c : Thread nD τ) arg8 fullShare d)
        ∗ (iprop(owns (c : Thread nD τ) arg9 fullShare xs ∗ owns (c : Thread nD τ) arg3 fullShare x1 ∗ owns (c : Thread nD τ) arg7 fullShare x5 ∗ owns (c : Thread nD τ) arg8 fullShare (k0_pay5 x1 xs x5)) -∗ K ⟨⟩))
      ⊢ wp frame (wpE (defs₀ (F := F)) Variants.none c none) E (cc0__gcn_kernel i arg2 harg2 arg3 harg3 arg4 harg4 arg5 harg5 arg6 harg6 arg7 harg7 arg8 harg8 arg9 harg9 arg10 harg10) K := by
  simp only [cc0__gcn_kernel_eq_skeleton]; unfold cc0__gcn_kernel_skel
  unfold owns
  iintro ⟨⟨%f9, %hf9, H9⟩, ⟨%f1, %hf1, H1⟩, ⟨%f5, %hf5, H5⟩, ⟨%d8, %f8, -, H8⟩, Hk⟩
  obtain rfl := harg9.eq_unread hf9; obtain rfl := harg3.eq_unread hf1; obtain rfl := harg7.eq_unread hf5
  sl_exec (disch := first | exact h1 | exact h2 | exact h3 | exact h4)
  sl_step
  iapply Hk
  have e9 : View.readAt (Elt F) arg9.view (Rect.unit (s := S10000x16) ![0, 0] S10000x16.size inb_S10000x16_S10000x16_0_0).toLoadRect (harg9.unread xs) = xs := by
    simp only [View.readAt_eq_ld, harg9.read_unread, View.ld_unit_zero (S := S10000x16) hz2]
  have e1 : View.readAt (Elt F) arg3.view (Rect.unit (s := S400x10000) ![0, 0] S400x10000.size inb_S400x10000_S400x10000_0_0).toLoadRect (harg3.unread x1) = x1 := by
    simp only [View.readAt_eq_ld, harg3.read_unread, View.ld_unit_zero (S := S400x10000) hz2]
  have e5 : View.readAt (Elt F) arg7.view (Rect.unit (s := S1x16) ![0, 0] S1x16.size inb_S1x16_S1x16_0_0).toLoadRect (harg7.unread x5) = x5 := by
    simp only [View.readAt_eq_ld, harg7.read_unread, View.ld_unit_zero (S := S1x16) hz2]
  have e8 : View.read (Elt F) arg8.view (arg8.view.writes (Elt F) f8 [⟨Rect.unit (s := S400x16) ![0, 0] S400x16.size inb_S400x16_S400x16_0_0, k0_pay5 x1 xs x5⟩]) = k0_pay5 x1 xs x5 := by
    rw [View.read_writes_eq_canon _ _ _ (fun y => ⟨_, List.mem_singleton_self _, View.mem_set_unit_zero hz2 inb_S400x16_S400x16_0_0 y⟩), View.canon_unit_zero hz2]
  rw [e9, e1, e5]
  isplitl [H9]
  · iexists _; isplitr
    · ipureintro; exact harg9.read_unread _
    iexact H9
  isplitl [H1]
  · iexists _; isplitr
    · ipureintro; exact harg3.read_unread _
    iexact H1
  isplitl [H5]
  · iexists _; isplitr
    · ipureintro; exact harg7.read_unread _
    iexact H5
  iexists _; isplitr
  · ipureintro; exact e8
  iexact H8

end Cert.KernelIdeal.Body

end
-- ==== Proof.IdealBody.lean ====
/-
  The launch of the one kernel region: what the two scratch buffers hold between grid points, the body obligation at
  every point from the four runs, and the run of @main.

  Write S1 = x·W1 (as the matrix unit computes it), H = adj·S1 + b1 row block by row block, S2 = relu(H)·W2. Before
  point n the invariant says: for 1 ≤ n ≤ 25 the first scratch holds S1 and the second holds H on its first 400·n rows
  (anything below); from n = 26 on the first scratch holds S2. Pass 0 stores nothing into the output block, which is
  idle there and not written back; at point 25 + r the output block is rows [400 r, 400 r + 400) of adj·S2 + b2.
-/
import proofs.«127602_g13606456393732_cont_sun_m_1345_5_alg».proof.Proof.IdealRuns
import Idealize.ShloMosaic.Lib.Pipeline.FrameBody
import Idealize.ShloMosaic.Lib.Pipeline.Value
import Idealize.ShloMosaic.Lib.WritesUnit
import Idealize.ShloMosaic.Lib.ValueIdx
import Idealize.ShloMosaic.Lib.Ring
import Idealize.ShloMosaic.Lib.Tactic

set_option maxRecDepth 16384

noncomputable section

namespace Cert.KernelIdeal.Body

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The conditions, the offset and the output window's schedule, decided over the grid -/

theorem hc1 : ∀ t : Fin cfg0.N, c1 (grid0.coords t) ↔ t.val = 0 :=
  (by decide +kernel : ∀ t : Fin grid0.N, c1 (grid0.coords t) ↔ t.val = 0)
theorem hc2 : ∀ t : Fin cfg0.N, c2 (grid0.coords t) ↔ t.val = 25 :=
  (by decide +kernel : ∀ t : Fin grid0.N, c2 (grid0.coords t) ↔ t.val = 25)
theorem hc3 : ∀ t : Fin cfg0.N, c3 (grid0.coords t) ↔ t.val < 25 :=
  (by decide +kernel : ∀ t : Fin grid0.N, c3 (grid0.coords t) ↔ t.val < 25)
theorem hc4 : ∀ t : Fin cfg0.N, c4 (grid0.coords t) ↔ 25 ≤ t.val :=
  (by decide +kernel : ∀ t : Fin grid0.N, c4 (grid0.coords t) ↔ 25 ≤ t.val)
/-- In pass 0 the row offset of the point's slice is 400 times the point's number. -/
theorem hoff : ∀ t : Fin cfg0.N, t.val < 25 → k0_off1 (grid0.coords t) = ![400 * t.val, 0] :=
  (by decide +kernel : ∀ t : Fin grid0.N, t.val < 25 → k0_off1 (grid0.coords t) = ![400 * t.val, 0])
theorem idle6 : ∀ t : Fin cfg0.N, t.val < 25 → cfg0.idle 6 (grid0.coords t) = true :=
  (by decide +kernel : ∀ t : Fin grid0.N, t.val < 25 → cfg0.idle 6 (grid0.coords t) = true)
theorem noflush6 : ∀ t : Fin cfg0.N, t.val < 25 → (cfg0.win 6).flush t = false :=
  (by decide +kernel : ∀ t : Fin grid0.N, t.val < 25 → win0_6.flush t = false)
theorem live6 : ∀ t : Fin cfg0.N, 25 ≤ t.val → cfg0.idle 6 (grid0.coords t) = false :=
  (by decide +kernel : ∀ t : Fin grid0.N, 25 ≤ t.val → cfg0.idle 6 (grid0.coords t) = false)
theorem live0 (t : Fin cfg0.N) : cfg0.idle 0 (grid0.coords t) = false := rfl
theorem live1 (t : Fin cfg0.N) : cfg0.idle 1 (grid0.coords t) = false := rfl
theorem live2 (t : Fin cfg0.N) : cfg0.idle 2 (grid0.coords t) = false := rfl
theorem live3 (t : Fin cfg0.N) : cfg0.idle 3 (grid0.coords t) = false := rfl
theorem live4 (t : Fin cfg0.N) : cfg0.idle 4 (grid0.coords t) = false := rfl
theorem live5 (t : Fin cfg0.N) : cfg0.idle 5 (grid0.coords t) = false := rfl

/-! ## The memrefs the body is called with -/

abbrev ms0 (t : Fin cfg0.N) : Memref sig .tc .vmem S10000x128 .f32 := win0_0.stage (cfg0.slots t 0)
abbrev hms0 (t : Fin cfg0.N) : (ms0 t).IsWhole := hstage0_0 ((cfg0.slots t 0).cast nbuf0_0)
abbrev ms1 (t : Fin cfg0.N) : Memref sig .tc .vmem S400x10000 .f32 := win0_1.stage (cfg0.slots t 1)
abbrev hms1 (t : Fin cfg0.N) : (ms1 t).IsWhole := hstage0_1 ((cfg0.slots t 1).cast nbuf0_1)
abbrev ms2 (t : Fin cfg0.N) : Memref sig .tc .vmem S128x16 .f32 := win0_2.stage (cfg0.slots t 2)
abbrev hms2 (t : Fin cfg0.N) : (ms2 t).IsWhole := hstage0_2 ((cfg0.slots t 2).cast nbuf0_2)
abbrev ms3 (t : Fin cfg0.N) : Memref sig .tc .vmem S1x16 .f32 := win0_3.stage (cfg0.slots t 3)
abbrev hms3 (t : Fin cfg0.N) : (ms3 t).IsWhole := hstage0_3 ((cfg0.slots t 3).cast nbuf0_3)
abbrev ms4 (t : Fin cfg0.N) : Memref sig .tc .vmem S16x16 .f32 := win0_4.stage (cfg0.slots t 4)
abbrev hms4 (t : Fin cfg0.N) : (ms4 t).IsWhole := hstage0_4 ((cfg0.slots t 4).cast nbuf0_4)
abbrev ms5 (t : Fin cfg0.N) : Memref sig .tc .vmem S1x16 .f32 := win0_5.stage (cfg0.slots t 5)
abbrev hms5 (t : Fin cfg0.N) : (ms5 t).IsWhole := hstage0_5 ((cfg0.slots t 5).cast nbuf0_5)
abbrev ms6 (t : Fin cfg0.N) : Memref sig .tc .vmem S400x16 .f32 := win0_6.stage (cfg0.slots t 6)
abbrev hms6 (t : Fin cfg0.N) : (ms6 t).IsWhole := hstage0_6 ((cfg0.slots t 6).cast nbuf0_6)
abbrev sc0 : Memref sig .tc .vmem S10000x16 .f32 := Memref.whole cc0_scratch0
abbrev sc1 : Memref sig .tc .vmem S10000x16 .f32 := Memref.whole cc0_scratch1

theorem PhiA0_eq (c : Dev nD) :
    (Pipeline.ΦA spec0 c : sProp 𝕄)
      = iprop(iprop((∃ d, owns (c : Thread nD τ) sc0 fullShare d) ∗ (∃ d, owns (c : Thread nD τ) sc1 fullShare d)) ∗ (∃ r, prngReg c r)) := by
  unfold Pipeline.ΦA; rw [scopedRest0_eq]; simp only [sc0, sc1, owns_whole]; try rfl

/-! ## What the scratch buffers and the output block hold -/

/-- The point of pass 0 that stores row `y 0` of the second scratch, and the row's place in that point's slice. -/
def rowPt (y : S10000x16.Idx) : Fin cfg0.N := ⟨(y 0).val / 400, by have := (y 0).isLt; show _ < 50; change (y 0).val < 10000 at this; omega⟩
def rowLoc (y : S10000x16.Idx) : S400x16.Idx := ValueIdx.ix2 (⟨(y 0).val % 400, Nat.mod_lt _ (by decide)⟩ : Fin 400) (⟨(y 1).val, (y 1).isLt⟩ : Fin 16)

/-- S1 = x·W1, as the first point stores it. -/
def S1 (c : Dev nD) : Vec F S10000x16 .f32 := k0_pay1 (iblk m c 0 ⟨0, by decide⟩) (iblk m c 2 ⟨0, by decide⟩)
/-- H = adj·S1 + b1, row block by row block as pass 0 stores it. -/
def Hfull (c : Dev nD) : Vec F S10000x16 .f32 := fun y => k0_pay4 (iblk m c 1 (rowPt y)) (S1 m c) (iblk m c 3 (rowPt y)) (rowLoc y)
/-- S2 = relu(H)·W2, as the first point of pass 1 stores it. -/
def S2 (c : Dev nD) : Vec F S10000x16 .f32 := k0_pay2 (Hfull m c) (iblk m c 4 ⟨25, by decide⟩)
/-- The output block a pass-1 point stores: its rows of adj·S2 + b2. -/
def outAt (c : Dev nD) (t : Fin cfg0.N) : Vec F S400x16 .f32 := k0_pay5 (iblk m c 1 t) (S2 m c) (iblk m c 5 t)

/-- What the two scratch buffers hold before point `n`. -/
def Inv (c : Dev nD) (n : ℕ) (s h : Vec F S10000x16 .f32) : Prop :=
  (1 ≤ n → n ≤ 25 → s = S1 m c ∧ ∀ y : S10000x16.Idx, (y 0).val < 400 * n → h y = Hfull m c y) ∧ (26 ≤ n → s = S2 m c)

/-- The region invariant before point `n`: the scratch buffers at contents the invariant relates, and the generator
    register at some state. -/
def Phi (c : Dev nD) (n : ℕ) : sProp 𝕄 :=
  iprop(∃ s h, owns (c : Thread nD τ) sc0 fullShare s ∗ owns (c : Thread nD τ) sc1 fullShare h ∗ (∃ r, prngReg c r) ∗ ⌜Inv m c n s h⌝)

/-! ## A row block written over the second scratch, read back -/

theorem slab_mem (t : Fin cfg0.N) (ht : t.val < 25) (h3 : c3 (grid0.coords t)) (hs : Vec F S10000x16 .f32) (w : Vec F S400x16 .f32)
    (y : S10000x16.Idx) (hy : 400 * t.val ≤ (y 0).val ∧ (y 0).val < 400 * t.val + 400) :
    slab (grid0.coords t) h3 sc1 (Memref.isWhole_whole _) hs w y = w (rowLoc y) := by
  unfold slab
  exact View.read_writes_cons_rows_of_mem sc1.view _ (k0_off1_inb (grid0.coords t) h3) w [] y (rowLoc y) (hoff t ht)
    (by show (y 0).val = 400 * t.val + (y 0).val % 400; omega) rfl

theorem slab_not_mem (t : Fin cfg0.N) (ht : t.val < 25) (h3 : c3 (grid0.coords t)) (hs : Vec F S10000x16 .f32) (w : Vec F S400x16 .f32)
    (y : S10000x16.Idx) (hy : (y 0).val < 400 * t.val ∨ 400 * t.val + 400 ≤ (y 0).val) :
    slab (grid0.coords t) h3 sc1 (Memref.isWhole_whole _) hs w y = hs y := by
  unfold slab
  refine (View.read_writes_cons_rows_of_not_mem sc1.view _ (k0_off1_inb (grid0.coords t) h3) w [] y (hoff t ht) (W := 400) rfl hy).trans ?_
  exact congrFun ((Memref.isWhole_whole cc0_scratch1).read_unread hs) y

/-- One more row block of H: if the second scratch holds H on its first 400·t rows, then with the point's slice written
    over it it holds H on its first 400·(t+1) rows. -/
theorem rows_step (c : Dev nD) (t : Fin cfg0.N) (ht : t.val < 25) (h3 : c3 (grid0.coords t)) (h : Vec F S10000x16 .f32)
    (hh : ∀ y : S10000x16.Idx, (y 0).val < 400 * t.val → h y = Hfull m c y) (y : S10000x16.Idx)
    (hy : (y 0).val < 400 * (t.val + 1)) :
    slab (grid0.coords t) h3 sc1 (Memref.isWhole_whole _) h (k0_pay4 (iblk m c 1 t) (S1 m c) (iblk m c 3 t)) y = Hfull m c y := by
  by_cases hlt : (y 0).val < 400 * t.val
  · rw [slab_not_mem t ht h3 h _ y (.inl hlt)]; exact hh y hlt
  · rw [slab_mem t ht h3 h _ y ⟨by omega, by omega⟩]
    have e : rowPt y = t := Fin.ext (by show (y 0).val / 400 = t.val; omega)
    unfold Hfull; rw [e]

/-! ## The pipeline's proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outAt m c t
  Φ t := Phi m c t.val
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = outAt m c t := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

theorem leaves_in (c : Dev nD) (t : Fin cfg0.N) :
    (dats m 0 c).leavesExact 0 t = owns (c : Thread nD τ) (ms0 t) fullShare (iblk m c 0 t) ∧
    (dats m 0 c).leavesExact 1 t = owns (c : Thread nD τ) (ms1 t) fullShare (iblk m c 1 t) ∧
    (dats m 0 c).leavesExact 2 t = owns (c : Thread nD τ) (ms2 t) fullShare (iblk m c 2 t) ∧
    (dats m 0 c).leavesExact 3 t = owns (c : Thread nD τ) (ms3 t) fullShare (iblk m c 3 t) ∧
    (dats m 0 c).leavesExact 4 t = owns (c : Thread nD τ) (ms4 t) fullShare (iblk m c 4 t) ∧
    (dats m 0 c).leavesExact 5 t = owns (c : Thread nD τ) (ms5 t) fullShare (iblk m c 5 t) := by
  refine ⟨?_, ?_, ?_, ?_, ?_, ?_⟩
  · unfold Dat.leavesExact; rw [live0 t, after0]
  · unfold Dat.leavesExact; rw [live1 t, after1]
  · unfold Dat.leavesExact; rw [live2 t, after2]
  · unfold Dat.leavesExact; rw [live3 t, after3]
  · unfold Dat.leavesExact; rw [live4 t, after4]
  · unfold Dat.leavesExact; rw [live5 t, after5]

set_option maxHeartbeats 1600000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5]
  rw [show (dats m 0 c).owesAt () t.succ = (dats m 0 c).owesAt () t.castSucc from rfl]
  rw [show (dats m 0 c).Φ t.succ = Phi m c (t.val + 1) from rfl, show (dats m 0 c).Φ t.castSucc = Phi m c t.val from rfl]
  obtain ⟨l0, l1, l2, l3, l4, l5⟩ := leaves_in m c t
  rw [l0, l1, l2, l3, l4, l5]
  have hN : t.val < 50 := lt_of_lt_of_eq t.isLt (show cfg0.N = 50 from N_0)
  unfold Phi
  by_cases hp : t.val < 25
  · -- pass 0: the output block is idle and not written back
    rw [Dat.leavesExact_idle (dats m 0 c) 6 t (idle6 t hp) (noflush6 t hp)]
    have h3 : c3 (grid0.coords t) := (hc3 t).mpr hp
    have h2 : ¬ c2 (grid0.coords t) := fun h => by have := (hc2 t).mp h; omega
    have h4 : ¬ c4 (grid0.coords t) := fun h => by have := (hc4 t).mp h; omega
    iintro ⟨⟨%s, %h, HS, HH, Hg, %hI⟩, Ho, ⟨%d0, H0⟩, ⟨%d1, H1⟩, ⟨%d2, H2⟩, ⟨%d3, H3⟩, ⟨%d4, H4⟩, ⟨%d5, H5⟩, H6⟩
    by_cases h0 : t.val = 0
    · obtain rfl : t = ⟨0, by decide⟩ := Fin.ext h0
      iapply (runA c _ _ (hms0 _) _ (hms1 _) _ (hms2 _) _ (hms3 _) _ (hms4 _) _ (hms5 _) _ (hms6 _) sc0 (Memref.isWhole_whole _) sc1 (Memref.isWhole_whole _)
        ((hc1 _).mpr rfl) h2 h3 h4 (iblk m c 0 _) (iblk m c 2 _) (iblk m c 1 _) (iblk m c 3 _) h Set.univ _)
      isplitl [H0]; · iexact H0
      isplitl [H2]; · iexact H2
      isplitl [HS]; · iexists _; iexact HS
      isplitl [H1]; · iexact H1
      isplitl [H3]; · iexact H3
      isplitl [HH]; · iexact HH
      iintro ⟨H0, H2, HS, H1, H3, HH⟩
      isplitl [HS HH Hg]
      · iexists _, _
        isplitl [HS]; · iexact HS
        isplitl [HH]; · iexact HH
        isplitl [Hg]; · iexact Hg
        ipureintro
        refine ⟨fun _ _ => ⟨rfl, fun y hy => ?_⟩, fun h26 => by omega⟩
        exact rows_step m c ⟨0, by decide⟩ hp h3 h (fun y hy => by omega) y hy
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
    · have h1 : ¬ c1 (grid0.coords t) := fun h => h0 ((hc1 t).mp h)
      obtain ⟨rfl, hrows⟩ := hI.1 (by omega) (by omega)
      iapply (runB c _ _ (hms0 _) _ (hms1 _) _ (hms2 _) _ (hms3 _) _ (hms4 _) _ (hms5 _) _ (hms6 _) sc0 (Memref.isWhole_whole _) sc1 (Memref.isWhole_whole _)
        h1 h2 h3 h4 (iblk m c 1 t) (iblk m c 3 t) (S1 m c) h Set.univ _)
      isplitl [HS]; · iexact HS
      isplitl [H1]; · iexact H1
      isplitl [H3]; · iexact H3
      isplitl [HH]; · iexact HH
      iintro ⟨HS, H1, H3, HH⟩
      isplitl [HS HH Hg]
      · iexists _, _
        isplitl [HS]; · iexact HS
        isplitl [HH]; · iexact HH
        isplitl [Hg]; · iexact Hg
        ipureintro
        exact ⟨fun _ _ => ⟨rfl, fun y hy => rows_step m c t hp h3 h hrows y hy⟩, fun h26 => by omega⟩
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
  · -- pass 1: the output block is stored whole
    have hp' : 25 ≤ t.val := by omega
    rw [show (dats m 0 c).leavesExact 6 t = owns (c : Thread nD τ) (ms6 t) fullShare ((dats m 0 c).after 6 t) from by
      unfold Dat.leavesExact; rw [live6 t hp'], after6]
    have h1 : ¬ c1 (grid0.coords t) := fun h => by have := (hc1 t).mp h; omega
    have h3 : ¬ c3 (grid0.coords t) := fun h => by have := (hc3 t).mp h; omega
    have h4 : c4 (grid0.coords t) := (hc4 t).mpr hp'
    iintro ⟨⟨%s, %h, HS, HH, Hg, %hI⟩, Ho, ⟨%d0, H0⟩, ⟨%d1, H1⟩, ⟨%d2, H2⟩, ⟨%d3, H3⟩, ⟨%d4, H4⟩, ⟨%d5, H5⟩, H6⟩
    by_cases h25 : t.val = 25
    · obtain rfl : t = ⟨25, by decide⟩ := Fin.ext h25
      obtain ⟨rfl, hrows⟩ := hI.1 (by decide) (by decide)
      obtain rfl : h = Hfull m c := funext fun y => hrows y (by have := (y 0).isLt; change (y 0).val < 10000 at this; omega)
      iapply (runC c _ _ (hms0 _) _ (hms1 _) _ (hms2 _) _ (hms3 _) _ (hms4 _) _ (hms5 _) _ (hms6 _) sc0 (Memref.isWhole_whole _) sc1 (Memref.isWhole_whole _)
        h1 ((hc2 _).mpr rfl) h3 h4 (iblk m c 4 _) (iblk m c 1 _) (iblk m c 5 _) (S1 m c) (Hfull m c) Set.univ _)
      isplitl [HH]; · iexact HH
      isplitl [H4]; · iexact H4
      isplitl [HS]; · iexact HS
      isplitl [H1]; · iexact H1
      isplitl [H5]; · iexact H5
      isplitl [H6]; · icases H6 with ⟨%d6, H6⟩; iexists _; iexact H6
      iintro ⟨HH, H4, HS, H1, H5, H6⟩
      isplitl [HS HH Hg]
      · iexists _, _
        isplitl [HS]; · iexact HS
        isplitl [HH]; · iexact HH
        isplitl [Hg]; · iexact Hg
        ipureintro
        exact ⟨fun _ h25' => by omega, fun _ => rfl⟩
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
    · have h2 : ¬ c2 (grid0.coords t) := fun h => h25 ((hc2 t).mp h)
      obtain rfl := hI.2 (by omega)
      iapply (runD c _ _ (hms0 _) _ (hms1 _) _ (hms2 _) _ (hms3 _) _ (hms4 _) _ (hms5 _) _ (hms6 _) sc0 (Memref.isWhole_whole _) sc1 (Memref.isWhole_whole _)
        h1 h2 h3 h4 (iblk m c 1 t) (iblk m c 5 t) (S2 m c) Set.univ _)
      isplitl [HS]; · iexact HS
      isplitl [H1]; · iexact H1
      isplitl [H5]; · iexact H5
      isplitl [H6]; · icases H6 with ⟨%d6, H6⟩; iexists _; iexact H6
      iintro ⟨HS, H1, H5, H6⟩
      isplitl [HS HH Hg]
      · iexists _, _
        isplitl [HS]; · iexact HS
        isplitl [HH]; · iexact HH
        isplitl [Hg]; · iexact Hg
        ipureintro
        exact ⟨fun _ h25' => by omega, fun _ => rfl⟩
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6

theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = Phi m c 0 from rfl, PhiA0_eq]
  unfold Phi
  iintro ⟨⟨⟨%s, HS⟩, ⟨%h, HH⟩⟩, Hg⟩
  iexists s, h
  isplitl [HS]; · iexact HS
  isplitl [HH]; · iexact HH
  isplitl [Hg]; · iexact Hg
  ipureintro; exact ⟨fun h1 => by omega, fun h26 => by omega⟩

theorem hout (c : Dev nD) : (dats m 0 c).Φ (Fin.last cfg0.N) ⊢ Pipeline.ΦA spec0 c := by
  rw [show (dats m 0 c).Φ (Fin.last cfg0.N) = Phi m c (Fin.last cfg0.N).val from rfl, PhiA0_eq]
  unfold Phi
  iintro ⟨%s, %h, HS, HH, Hg, -⟩
  isplitl [HS HH]
  · isplitl [HS]
    · iexists _; iexact HS
    iexists _; iexact HH
  iexact Hg

/-! ## The run and the frame -/

set_option backward.isDefEq.respectTransparency.types false in
/-- Every weakly fair execution of @main terminates; every array of the pipeline ends at what the library computes from
    the proof data, every other unscoped buffer as the region found it. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The frame: the program runs to the end, faults nowhere, and its argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

end Cert.KernelIdeal.Body

end
-- ==== Proof.LibMatProd.lean ====
/-
  A contraction over ONE axis as the familiar matrix product, over the extended reals. For dimension numbers that
  contract the left operand's axis 1 against the right operand's axis 0 and keep the left's axis 0 and the right's
  axis 1 — a matrix product's, on a kernel's matrix unit or as a host contraction — the sum over the contraction's
  index set is `Σ_{k < K} x (r, k) · w (k, q)`. The four coordinate facts are hypotheses, read off each record where
  the lemma is used (two of them are the library's `lhsIdx_val_of_single` / `rhsIdx_val_of_single`).
-/
import Idealize.ShloMosaic.PureOps.Ideal
import Idealize.ShloMosaic.Lib.ValueIdx

noncomputable section

namespace Cert.Gcn.Dense

open Idealize.ShloMosaic Idealize.ShloMosaic.ValueIdx

/-- The matrix product of an `M × K` array and a `K × N` array of extended reals, index by index:
    entry `(r, q)` is `Σ_{k < K} x (r, k) · w (k, q)`. -/
def prod {M K N : Nat} (x : (⟨2, ![M, K]⟩ : Shape).Idx → EReal) (w : (⟨2, ![K, N]⟩ : Shape).Idx → EReal) :
    (⟨2, ![M, N]⟩ : Shape).Idx → EReal :=
  fun i => ∑ k : Fin K, x (ix2 (i 0) k) * w (ix2 k (i 1))

/-- A contraction over ONE axis of size `K`, the left operand's axis 1 against the right operand's axis 0, the
    left's axis 0 and the right's axis 1 kept: the sum over the contraction's index set is the sum over `k < K`
    that `prod` writes. The four hypotheses say which coordinate each operand index takes from where. -/
theorem sum_contr_eq_prod {M K N : Nat} (D : DotDims ⟨2, ![M, K]⟩ ⟨2, ![K, N]⟩ ⟨2, ![M, N]⟩)
    (hr : D.contr.rank = 1) (hs : D.contr.size ⟨0, by omega⟩ = K)
    (hl0 : ∀ (i : (⟨2, ![M, N]⟩ : Shape).Idx) (q : D.contr.Idx), (D.lhsIdx i q 0).val = (i 0).val)
    (hl1 : ∀ (i : (⟨2, ![M, N]⟩ : Shape).Idx) (q : D.contr.Idx), (D.lhsIdx i q 1).val = (q ⟨0, by omega⟩).val)
    (hr0 : ∀ (i : (⟨2, ![M, N]⟩ : Shape).Idx) (q : D.contr.Idx), (D.rhsIdx i q 0).val = (q ⟨0, by omega⟩).val)
    (hr1 : ∀ (i : (⟨2, ![M, N]⟩ : Shape).Idx) (q : D.contr.Idx), (D.rhsIdx i q 1).val = (i 1).val)
    (x : (⟨2, ![M, K]⟩ : Shape).Idx → EReal) (w : (⟨2, ![K, N]⟩ : Shape).Idx → EReal) (i : (⟨2, ![M, N]⟩ : Shape).Idx) :
    ∑ k : D.contr.Idx, x (D.lhsIdx i k) * w (D.rhsIdx i k) = prod x w i := by
  unfold prod
  rw [← Equiv.sum_comp (contrEquiv1 D K hr hs).symm]
  refine Finset.sum_congr rfl fun k _ => ?_
  have hk := contrEquiv1_symm_val D K hr hs k
  have el : D.lhsIdx i ((contrEquiv1 D K hr hs).symm k) = ix2 (i 0) k := funext fun a => Fin.ext (by
    match a with
    | ⟨0, _⟩ => exact hl0 _ _
    | ⟨1, _⟩ => exact (hl1 _ _).trans hk)
  have er : D.rhsIdx i ((contrEquiv1 D K hr hs).symm k) = ix2 k (i 1) := funext fun a => Fin.ext (by
    match a with
    | ⟨0, _⟩ => exact (hr0 _ _).trans hk
    | ⟨1, _⟩ => exact hr1 _ _)
  rw [el, er]
  rfl

end Cert.Gcn.Dense

end
-- ==== Proof.Spec.lean ====
/-
  The two-layer graph convolution as one function of its six arguments, over the extended reals, index by index:

      out = adj · ( relu( adj · (x · W1) + b1 ) · W2 ) + b2

  with every product the plain matrix product `Σ_k a (r, k) · b (k, q)` and each bias added along the rows. Both
  programs compute exactly this arrangement (the kernel row block by row block), so no law of arithmetic joins them;
  `relu` is the maximum with the zero the programs name, kept as a parameter.
-/
import proofs.«127602_g13606456393732_cont_sun_m_1345_5_alg».proof.Proof.LibMatProd

noncomputable section

namespace Cert.Gcn.Spec

open Idealize.ShloMosaic Idealize.ShloMosaic.ValueIdx Cert.Gcn.Dense

/-- One graph-convolution layer on a support `s`: row `r`, column `q` is `Σ_j adj (r, j) · s (j, q) + b q`. -/
def conv {M K N : Nat} (adj : (⟨2, ![M, K]⟩ : Shape).Idx → EReal) (s : (⟨2, ![K, N]⟩ : Shape).Idx → EReal)
    (b : (⟨1, ![N]⟩ : Shape).Idx → EReal) : (⟨2, ![M, N]⟩ : Shape).Idx → EReal :=
  fun i => prod adj s i + b (ix1 (i 1))

/-- The entrywise maximum with `z`. -/
def relu {M N : Nat} (z : EReal) (h : (⟨2, ![M, N]⟩ : Shape).Idx → EReal) : (⟨2, ![M, N]⟩ : Shape).Idx → EReal :=
  fun i => max (h i) z

/-- The whole network. -/
def G {n f h k : Nat} (z : EReal) (x : (⟨2, ![n, f]⟩ : Shape).Idx → EReal) (adj : (⟨2, ![n, n]⟩ : Shape).Idx → EReal)
    (w1 : (⟨2, ![f, h]⟩ : Shape).Idx → EReal) (b1 : (⟨1, ![h]⟩ : Shape).Idx → EReal)
    (w2 : (⟨2, ![h, k]⟩ : Shape).Idx → EReal) (b2 : (⟨1, ![k]⟩ : Shape).Idx → EReal) : (⟨2, ![n, k]⟩ : Shape).Idx → EReal :=
  conv adj (prod (relu z (conv adj (prod x w1) b1)) w2) b2

end Cert.Gcn.Spec

end
-- ==== Proof.IdealPay.lean ====
/-
  The body's five payloads at the ideal instance, as plain matrix arithmetic: the two support products, the relu, the
  row block of adj·support (the change of float format of both operands is the identity on the extended reals), and
  the bias row broadcast over the block's rows.
-/
import proofs.«127602_g13606456393732_cont_sun_m_1345_5_alg».proof.Proof.Gen.KernelIdeal.Skeleton
import proofs.«127602_g13606456393732_cont_sun_m_1345_5_alg».proof.Proof.Spec
import Idealize.ShloMosaic.PureOps.Ideal.Laws
import Idealize.ShloMosaic.Lib.Pipeline.Value
import Idealize.ShloMosaic.Lib.ValueIdx

noncomputable section

namespace Cert.KernelIdeal.Pay

open Cert.KernelIdeal Cert.KernelIdeal.Gen Idealize.ShloMosaic Idealize.ShloMosaic.TcCoe Idealize.ShloMosaic.ValueIdx
open Cert.Gcn.Dense Cert.Gcn.Spec

theorem kA_l0 (i : (⟨2, ![10000, 16]⟩ : Shape).Idx) (q : dot_S10000x128_S128x16_S10000x16_1_0_0_1_n_n.contr.Idx) : (dot_S10000x128_S128x16_S10000x16_1_0_0_1_n_n.lhsIdx i q 0).val = (i 0).val := by
  unfold DotDims.lhsIdx
  rw [dif_neg (show ¬(0 : Fin 2) ∈ dot_S10000x128_S128x16_S10000x16_1_0_0_1_n_n.lhsBatch by decide), dif_pos (show (0 : Fin 2) ∈ dot_S10000x128_S128x16_S10000x16_1_0_0_1_n_n.lhsNonContracting by decide)]
  rfl
theorem kA_r1 (i : (⟨2, ![10000, 16]⟩ : Shape).Idx) (q : dot_S10000x128_S128x16_S10000x16_1_0_0_1_n_n.contr.Idx) : (dot_S10000x128_S128x16_S10000x16_1_0_0_1_n_n.rhsIdx i q 1).val = (i 1).val := by
  unfold DotDims.rhsIdx
  rw [dif_neg (show ¬(1 : Fin 2) ∈ dot_S10000x128_S128x16_S10000x16_1_0_0_1_n_n.rhsBatch by decide), dif_pos (show (1 : Fin 2) ∈ dot_S10000x128_S128x16_S10000x16_1_0_0_1_n_n.rhsNonContracting by decide)]
  rfl
/-- The contraction of this record is the matrix product. -/
theorem kA_sum (x : (⟨2, ![10000, 128]⟩ : Shape).Idx → EReal) (w : (⟨2, ![128, 16]⟩ : Shape).Idx → EReal) (i : (⟨2, ![10000, 16]⟩ : Shape).Idx) :
    ∑ k : dot_S10000x128_S128x16_S10000x16_1_0_0_1_n_n.contr.Idx, x (dot_S10000x128_S128x16_S10000x16_1_0_0_1_n_n.lhsIdx i k) * w (dot_S10000x128_S128x16_S10000x16_1_0_0_1_n_n.rhsIdx i k) = prod x w i :=
  sum_contr_eq_prod dot_S10000x128_S128x16_S10000x16_1_0_0_1_n_n rfl rfl kA_l0 (fun i q => dot_S10000x128_S128x16_S10000x16_1_0_0_1_n_n.lhsIdx_val_of_single rfl i q)
    (fun i q => dot_S10000x128_S128x16_S10000x16_1_0_0_1_n_n.rhsIdx_val_of_single rfl i q) kA_r1 x w i

theorem kB_l0 (i : (⟨2, ![400, 16]⟩ : Shape).Idx) (q : dot_S400x10000_S10000x16_S400x16_1_0_0_1_n_n.contr.Idx) : (dot_S400x10000_S10000x16_S400x16_1_0_0_1_n_n.lhsIdx i q 0).val = (i 0).val := by
  unfold DotDims.lhsIdx
  rw [dif_neg (show ¬(0 : Fin 2) ∈ dot_S400x10000_S10000x16_S400x16_1_0_0_1_n_n.lhsBatch by decide), dif_pos (show (0 : Fin 2) ∈ dot_S400x10000_S10000x16_S400x16_1_0_0_1_n_n.lhsNonContracting by decide)]
  rfl
theorem kB_r1 (i : (⟨2, ![400, 16]⟩ : Shape).Idx) (q : dot_S400x10000_S10000x16_S400x16_1_0_0_1_n_n.contr.Idx) : (dot_S400x10000_S10000x16_S400x16_1_0_0_1_n_n.rhsIdx i q 1).val = (i 1).val := by
  unfold DotDims.rhsIdx
  rw [dif_neg (show ¬(1 : Fin 2) ∈ dot_S400x10000_S10000x16_S400x16_1_0_0_1_n_n.rhsBatch by decide), dif_pos (show (1 : Fin 2) ∈ dot_S400x10000_S10000x16_S400x16_1_0_0_1_n_n.rhsNonContracting by decide)]
  rfl
/-- The contraction of this record is the matrix product. -/
theorem kB_sum (x : (⟨2, ![400, 10000]⟩ : Shape).Idx → EReal) (w : (⟨2, ![10000, 16]⟩ : Shape).Idx → EReal) (i : (⟨2, ![400, 16]⟩ : Shape).Idx) :
    ∑ k : dot_S400x10000_S10000x16_S400x16_1_0_0_1_n_n.contr.Idx, x (dot_S400x10000_S10000x16_S400x16_1_0_0_1_n_n.lhsIdx i k) * w (dot_S400x10000_S10000x16_S400x16_1_0_0_1_n_n.rhsIdx i k) = prod x w i :=
  sum_contr_eq_prod dot_S400x10000_S10000x16_S400x16_1_0_0_1_n_n rfl rfl kB_l0 (fun i q => dot_S400x10000_S10000x16_S400x16_1_0_0_1_n_n.lhsIdx_val_of_single rfl i q)
    (fun i q => dot_S400x10000_S10000x16_S400x16_1_0_0_1_n_n.rhsIdx_val_of_single rfl i q) kB_r1 x w i

theorem kC_l0 (i : (⟨2, ![10000, 16]⟩ : Shape).Idx) (q : dot_S10000x16_S16x16_S10000x16_1_0_0_1_n_n.contr.Idx) : (dot_S10000x16_S16x16_S10000x16_1_0_0_1_n_n.lhsIdx i q 0).val = (i 0).val := by
  unfold DotDims.lhsIdx
  rw [dif_neg (show ¬(0 : Fin 2) ∈ dot_S10000x16_S16x16_S10000x16_1_0_0_1_n_n.lhsBatch by decide), dif_pos (show (0 : Fin 2) ∈ dot_S10000x16_S16x16_S10000x16_1_0_0_1_n_n.lhsNonContracting by decide)]
  rfl
theorem kC_r1 (i : (⟨2, ![10000, 16]⟩ : Shape).Idx) (q : dot_S10000x16_S16x16_S10000x16_1_0_0_1_n_n.contr.Idx) : (dot_S10000x16_S16x16_S10000x16_1_0_0_1_n_n.rhsIdx i q 1).val = (i 1).val := by
  unfold DotDims.rhsIdx
  rw [dif_neg (show ¬(1 : Fin 2) ∈ dot_S10000x16_S16x16_S10000x16_1_0_0_1_n_n.rhsBatch by decide), dif_pos (show (1 : Fin 2) ∈ dot_S10000x16_S16x16_S10000x16_1_0_0_1_n_n.rhsNonContracting by decide)]
  rfl
/-- The contraction of this record is the matrix product. -/
theorem kC_sum (x : (⟨2, ![10000, 16]⟩ : Shape).Idx → EReal) (w : (⟨2, ![16, 16]⟩ : Shape).Idx → EReal) (i : (⟨2, ![10000, 16]⟩ : Shape).Idx) :
    ∑ k : dot_S10000x16_S16x16_S10000x16_1_0_0_1_n_n.contr.Idx, x (dot_S10000x16_S16x16_S10000x16_1_0_0_1_n_n.lhsIdx i k) * w (dot_S10000x16_S16x16_S10000x16_1_0_0_1_n_n.rhsIdx i k) = prod x w i :=
  sum_contr_eq_prod dot_S10000x16_S16x16_S10000x16_1_0_0_1_n_n rfl rfl kC_l0 (fun i q => dot_S10000x16_S16x16_S10000x16_1_0_0_1_n_n.lhsIdx_val_of_single rfl i q)
    (fun i q => dot_S10000x16_S16x16_S10000x16_1_0_0_1_n_n.rhsIdx_val_of_single rfl i q) kC_r1 x w i

/-- The zero the kernel's relu compares with. -/
abbrev z0 : EReal := Ideal.ofBits .f32 0x00000000#32

theorem pay1_eq (x : Vec Ideal S10000x128 .f32) (w : Vec Ideal S128x16 .f32) : k0_pay1 (F := Ideal) x w = prod x w := by
  funext j
  unfold k0_pay1
  rw [shapeCast_self]
  exact (Ideal.matmul_constant_zero_apply _ none _ _ j).trans (kA_sum x w j)

theorem pay2_eq (h : Vec Ideal S10000x16 .f32) (w : Vec Ideal S16x16 .f32) : k0_pay2 (F := Ideal) h w = prod (relu z0 h) w := by
  funext j
  unfold k0_pay2
  rw [shapeCast_self]
  exact (Ideal.matmul_constant_zero_apply _ none _ _ j).trans (kC_sum (relu z0 h) w j)

theorem pay3_eq (a : Vec Ideal S400x10000 .f32) (s : Vec Ideal S10000x16 .f32) : k0_pay3 (F := Ideal) a s = prod a s := by
  funext j
  unfold k0_pay3
  exact (Ideal.matmul_constant_zero_apply _ none _ _ j).trans (kB_sum a s j)

/-- A bias row broadcast over the block's rows, read at an index, is the bias row at the column. -/
theorem bias_row (b : Vec Ideal S1x16 .f32) (j : S400x16.Idx) :
    broadcastTo S400x16 (shapeCast S1x16 b shapeCasts_S1x16_S1x16) broadcasts_S1x16_S400x16 j = b (ix2 (0 : Fin 1) (⟨(j 1).val, (j 1).isLt⟩ : Fin 16)) := by
  rw [shapeCast_self]
  exact broadcastTo_apply b broadcasts_S1x16_S400x16 j _ (fun a => match a with
    | ⟨0, _⟩ => by show 0 = if (1 : Nat) = 1 then 0 else _; rw [if_pos rfl]
    | ⟨1, _⟩ => by show (j 1).val = if (16 : Nat) = 1 then 0 else (j 1).val; rw [if_neg (by decide)])

theorem pay4_apply (a : Vec Ideal S400x10000 .f32) (s : Vec Ideal S10000x16 .f32) (b : Vec Ideal S1x16 .f32) (j : S400x16.Idx) :
    k0_pay4 (F := Ideal) a s b j = prod a s j + b (ix2 (0 : Fin 1) (⟨(j 1).val, (j 1).isLt⟩ : Fin 16)) := by
  unfold k0_pay4
  rw [shapeCast_self, addf_apply, pay3_eq, bias_row]

theorem pay5_apply (a : Vec Ideal S400x10000 .f32) (s : Vec Ideal S10000x16 .f32) (b : Vec Ideal S1x16 .f32) (j : S400x16.Idx) :
    k0_pay5 (F := Ideal) a s b j = prod a s j + b (ix2 (0 : Fin 1) (⟨(j 1).val, (j 1).isLt⟩ : Fin 16)) := by
  unfold k0_pay5
  rw [addf_apply, pay3_eq, bias_row]

end Cert.KernelIdeal.Pay

end
-- ==== Proof.IdealValue.lean ====
/-
  What the kernel's result array holds after the run, and that at the ideal instance it is the specification.

  The output block written back by point 25 + r of the grid is rows [400 r, 400 r + 400) of one whole array, so the
  twenty-five blocks tile the result. At the ideal instance each row block of adj·support + bias read at a row is the
  whole product at that row (the block's row r' is row 400 r + r' of adj), the bias rows are the bias vectors, and the
  stored supports are x·W1 and relu(adj·(x·W1) + b1)·W2.
-/
import proofs.«127602_g13606456393732_cont_sun_m_1345_5_alg».proof.Proof.IdealBody
import proofs.«127602_g13606456393732_cont_sun_m_1345_5_alg».proof.Proof.IdealPay
import Idealize.ShloMosaic.Lib.StableHlo.Run

set_option maxRecDepth 16384

noncomputable section

namespace Cert.KernelIdeal.Out

open Cert.KernelIdeal Cert.KernelIdeal.Gen Cert.KernelIdeal.Body Cert.KernelIdeal.Pay
open Idealize.ShloMosaic Idealize.ShloMosaic.TcCoe Idealize.ShloMosaic.ValueIdx Idealize.SL.Sem Idealize.ShloMosaic.StableHlo
open Idealize.ShloMosaic.Pipeline (Dat Cfg Window)
open Cert.Gcn.Dense Cert.Gcn.Spec

section AnyInstance

variable {F : FTy → Type} [FloatOps F]
variable (m : (ℓ : Loc nD τ sig) → Buf (Elt F) ℓ) (ρ : Dev nD → PrngReg)

/-- The point of pass 1 that writes back row `y 0` of the result. -/
def outPt (y : S10000x16.Idx) : Fin cfg0.N := ⟨25 + (y 0).val / 400, by have h : (y 0).val < 10000 := (y 0).isLt; show _ < 50; omega⟩

/-- The result array: row by row, what the point that covers the row stored in its output block. -/
def Gk (c : Dev nD) : Vec F S10000x16 .f32 := fun y => outAt m c (outPt y) (rowLoc y)

theorem flush6 : ∀ t : Fin cfg0.N, (cfg0.win 6).flush t = true ↔ 25 ≤ t.val :=
  (by decide +kernel : ∀ t : Fin grid0.N, win0_6.flush t = true ↔ 25 ≤ t.val)
theorem idx6 : ∀ t : Fin cfg0.N, 25 ≤ t.val → win0_6.index t (0 : Fin 2) = t.val - 25 ∧ win0_6.index t (1 : Fin 2) = 0 :=
  (by decide +kernel : ∀ t : Fin grid0.N, 25 ≤ t.val → win0_6.index t (0 : Fin 2) = t.val - 25 ∧ win0_6.index t (1 : Fin 2) = 0)

/-- What a pass-1 point writes back is its block of the result array. -/
theorem flushed6_eq (c : Dev nD) (t : Fin cfg0.N) (hf : (cfg0.win 6).flush t = true) :
    (dats m 0 c).flushed 6 t = ((cfg0.win 6).blk t).view.read (Elt F) (Gk m c) := by
  show (cfg0.win 6).cut (grid0.coords t) ((dats m 0 c).after 6 t) = _
  rw [after6]
  have ht := (flush6 t).mp hf
  obtain ⟨e0, e1⟩ := idx6 t ht
  funext x
  show outAt m c t x = Gk m c (((cfg0.win 6).blk t).view.emb x)
  have hx : (x 0).val < 400 := (x 0).isLt
  have hx0 : ((((cfg0.win 6).blk t).view.emb x) 0).val = (t.val - 25) * 400 + (x 0).val := by
    show win0_6.index t (0 : Fin 2) * 400 + 1 * (x 0).val = _; rw [e0]; omega
  have hx1 : ((((cfg0.win 6).blk t).view.emb x) 1).val = (x 1).val := by
    show win0_6.index t (1 : Fin 2) * 16 + 1 * (x 1).val = _; rw [e1]; omega
  have ep : outPt (((cfg0.win 6).blk t).view.emb x) = t := Fin.ext (by
    show 25 + ((((cfg0.win 6).blk t).view.emb x) 0).val / 400 = t.val; rw [hx0]; omega)
  have el : rowLoc (((cfg0.win 6).blk t).view.emb x) = x := funext fun a => Fin.ext (by
    match a with
    | ⟨0, _⟩ => show ((((cfg0.win 6).blk t).view.emb x) 0).val % 400 = (x 0).val; rw [hx0]; omega
    | ⟨1, _⟩ => exact hx1)
  unfold Gk
  rw [ep, el]

theorem mem_blk6 (t : Fin cfg0.N) (i : S10000x16.Idx) :
    i ∈ ((cfg0.win 6).blk t).view.set ↔ ∀ a : Fin 2, win0_6.index t a * S400x16.size a ≤ (i a).val ∧ (i a).val < win0_6.index t a * S400x16.size a + S400x16.size a := by
  show i ∈ ((View.whole main_v0).slice (win0_6.rect t)).set ↔ _
  rw [View.set_slice_whole, Rect.mem_set_unit]
  exact Iff.rfl

/-- Every row of the result is in the block some pass-1 point writes back. -/
theorem cover6 (i : S10000x16.Idx) : ∃ t : Fin cfg0.N, (cfg0.win 6).flush t = true ∧ i ∈ ((cfg0.win 6).blk t).view.set := by
  have hi0 : (i 0).val < 10000 := (i 0).isLt
  have hi1 : (i 1).val < 16 := (i 1).isLt
  have hv : (outPt i).val = 25 + (i 0).val / 400 := rfl
  obtain ⟨e0, e1⟩ := idx6 (outPt i) (by rw [hv]; omega)
  refine ⟨outPt i, (flush6 _).mpr (by rw [hv]; omega), ?_⟩
  rw [mem_blk6]
  intro a
  match a with
  | ⟨0, _⟩ => show win0_6.index (outPt i) (0 : Fin 2) * 400 ≤ (i 0).val ∧ (i 0).val < win0_6.index (outPt i) (0 : Fin 2) * 400 + 400; rw [e0, hv]; omega
  | ⟨1, _⟩ => show win0_6.index (outPt i) (1 : Fin 2) * 16 ≤ (i 1).val ∧ (i 1).val < win0_6.index (outPt i) (1 : Fin 2) * 16 + 16; rw [e1]; omega

/-- The result array after the run. -/
theorem final6 (c : Dev nD) : (dats m 0 c).arrAt 6 cfg0.N = Gk m c :=
  (dats m 0 c).arrAt_eq_of_cover 6 (Gk m c) (fun t hf => flushed6_eq m c t hf) cover6

/-- The run with the result named: the result array ends at `Gk`, the arguments unchanged. -/
theorem run : θ_run defs (onTc (τ := τ) (main (F := F))) ⟨m, fun _ => 0, ρ⟩ (fun r => ∀ c : Dev nD,
      r.2.mem ((c.tc : Thread nD τ).loc main_v0) = Gk m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h c).1 6).trans (final6 m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).2 main_arg3 (Pipeline.mem_restRefs_of main_arg3 (by decide) (by decide))).trans (V_main_arg3 m c),
      ((h c).1 4).trans (((dats m 0 c).arrAt_in 4 rfl _).trans ((A_eq m c 4).trans (V_main_arg4 m c))),
      ((h c).2 main_arg5 (Pipeline.mem_restRefs_of main_arg5 (by decide) (by decide))).trans (V_main_arg5 m c)⟩)
    (run_main m ρ)

end AnyInstance

/-! ## At the ideal instance -/

section AtIdeal

variable (m : (ℓ : Loc nD τ sig) → Buf (Elt Ideal) ℓ)

structure WholeIdx (t : Fin cfg0.N) : Prop where
  w00 : win0_0.index t (0 : Fin 2) = 0
  w01 : win0_0.index t (1 : Fin 2) = 0
  w20 : win0_2.index t (0 : Fin 2) = 0
  w21 : win0_2.index t (1 : Fin 2) = 0
  w30 : win0_3.index t (0 : Fin 2) = 0
  w31 : win0_3.index t (1 : Fin 2) = 0
  w40 : win0_4.index t (0 : Fin 2) = 0
  w41 : win0_4.index t (1 : Fin 2) = 0
  w50 : win0_5.index t (0 : Fin 2) = 0
  w51 : win0_5.index t (1 : Fin 2) = 0
  w10 : win0_1.index t (0 : Fin 2) = t.val % 25
  w11 : win0_1.index t (1 : Fin 2) = 0

/-- The printed index maps, decided over the grid: every input window but adj's sits at block (0, 0); adj's block is
    the point's row-block number. -/
theorem whole_idx : ∀ t : Fin cfg0.N, WholeIdx t :=
  fun t => by
    have h := (by decide +kernel : ∀ t : Fin grid0.N, win0_0.index t (0 : Fin 2) = 0 ∧ win0_0.index t (1 : Fin 2) = 0
      ∧ win0_2.index t (0 : Fin 2) = 0 ∧ win0_2.index t (1 : Fin 2) = 0 ∧ win0_3.index t (0 : Fin 2) = 0 ∧ win0_3.index t (1 : Fin 2) = 0
      ∧ win0_4.index t (0 : Fin 2) = 0 ∧ win0_4.index t (1 : Fin 2) = 0 ∧ win0_5.index t (0 : Fin 2) = 0 ∧ win0_5.index t (1 : Fin 2) = 0
      ∧ win0_1.index t (0 : Fin 2) = t.val % 25 ∧ win0_1.index t (1 : Fin 2) = 0) t
    exact ⟨h.1, h.2.1, h.2.2.1, h.2.2.2.1, h.2.2.2.2.1, h.2.2.2.2.2.1, h.2.2.2.2.2.2.1, h.2.2.2.2.2.2.2.1, h.2.2.2.2.2.2.2.2.1,
      h.2.2.2.2.2.2.2.2.2.1, h.2.2.2.2.2.2.2.2.2.2.1, h.2.2.2.2.2.2.2.2.2.2.2⟩

theorem iblk0_eq (c : Dev nD) (t : Fin cfg0.N) : (iblk m c 0 t : S10000x128.Idx → EReal) = m ((c.tc : Thread nD τ).loc main_arg0) := by
  funext y
  show V m c main_arg0 (((cfg0.win 0).blk t).view.emb y) = _
  rw [V_main_arg0]
  refine congrArg _ (funext fun a => Fin.ext ?_)
  have hi := whole_idx t
  match a with
  | ⟨0, _⟩ => show win0_0.index t (0 : Fin 2) * 10000 + 1 * (y 0).val = (y 0).val; rw [hi.w00]; omega
  | ⟨1, _⟩ => show win0_0.index t (1 : Fin 2) * 128 + 1 * (y 1).val = (y 1).val; rw [hi.w01]; omega

theorem iblk2_eq (c : Dev nD) (t : Fin cfg0.N) : (iblk m c 2 t : S128x16.Idx → EReal) = m ((c.tc : Thread nD τ).loc main_arg2) := by
  funext y
  show V m c main_arg2 (((cfg0.win 2).blk t).view.emb y) = _
  rw [V_main_arg2]
  refine congrArg _ (funext fun a => Fin.ext ?_)
  have hi := whole_idx t
  match a with
  | ⟨0, _⟩ => show win0_2.index t (0 : Fin 2) * 128 + 1 * (y 0).val = (y 0).val; rw [hi.w20]; omega
  | ⟨1, _⟩ => show win0_2.index t (1 : Fin 2) * 16 + 1 * (y 1).val = (y 1).val; rw [hi.w21]; omega

theorem iblk4_eq (c : Dev nD) (t : Fin cfg0.N) : (iblk m c 4 t : S16x16.Idx → EReal) = m ((c.tc : Thread nD τ).loc main_arg4) := by
  funext y
  show V m c main_arg4 (((cfg0.win 4).blk t).view.emb y) = _
  rw [V_main_arg4]
  refine congrArg _ (funext fun a => Fin.ext ?_)
  have hi := whole_idx t
  match a with
  | ⟨0, _⟩ => show win0_4.index t (0 : Fin 2) * 16 + 1 * (y 0).val = (y 0).val; rw [hi.w40]; omega
  | ⟨1, _⟩ => show win0_4.index t (1 : Fin 2) * 16 + 1 * (y 1).val = (y 1).val; rw [hi.w41]; omega

/-- Row `r` of adj's block at point `t` is row `400 (t mod 25) + r` of adj. -/
theorem iblk1_apply (c : Dev nD) (t : Fin cfg0.N) (r : Fin 400) (k : Fin 10000) (R : Fin 10000) (hR : R.val = 400 * (t.val % 25) + r.val) :
    (iblk m c 1 t : S400x10000.Idx → EReal) (ix2 r k) = m ((c.tc : Thread nD τ).loc main_arg1) (ix2 R k) := by
  have hi := whole_idx t
  show V m c main_arg1 (((cfg0.win 1).blk t).view.emb (ix2 r k)) = _
  rw [V_main_arg1]
  refine congrArg _ (funext fun a => Fin.ext ?_)
  match a with
  | ⟨0, _⟩ => show win0_1.index t (0 : Fin 2) * 400 + 1 * r.val = R.val; rw [hi.w10, hR]; omega
  | ⟨1, _⟩ => show win0_1.index t (1 : Fin 2) * 10000 + 1 * k.val = k.val; rw [hi.w11]; omega

theorem V_main_call0_v0 (c : Dev nD) : (V m c main_call0_v0 : S1x16.Idx → EReal)
    = shapeCast S1x16 (m ((c.tc : Thread nD τ).loc main_arg3) : S16.Idx → EReal) shapeCasts_S16_S1x16 := by
  dsimp only [V, hostOps0]; after_results; rfl

theorem iblk3_apply (c : Dev nD) (t : Fin cfg0.N) (q : Fin 16) :
    (iblk m c 3 t : S1x16.Idx → EReal) (ix2 (0 : Fin 1) q) = m ((c.tc : Thread nD τ).loc main_arg3) (ix1 q) := by
  have hi := whole_idx t
  have e : ((cfg0.win 3).blk t).view.emb (ix2 (0 : Fin 1) q) = (ix2 (0 : Fin 1) q : S1x16.Idx) := funext fun a => Fin.ext (by
    match a with
    | ⟨0, _⟩ => show win0_3.index t (0 : Fin 2) * 1 + 1 * 0 = 0; rw [hi.w30]
    | ⟨1, _⟩ => show win0_3.index t (1 : Fin 2) * 16 + 1 * q.val = q.val; rw [hi.w31]; omega)
  show V m c main_call0_v0 (((cfg0.win 3).blk t).view.emb (ix2 (0 : Fin 1) q)) = _
  rw [e, V_main_call0_v0]
  refine (shapeCast_addUnit_apply ![16] _ shapeCasts_S16_S1x16 (ix2 (0 : Fin 1) q)).trans (congrArg _ (funext fun a => ?_))
  match a with
  | ⟨0, _⟩ => rfl

theorem V_main_call0_v1 (c : Dev nD) : (V m c main_call0_v1 : S1x16.Idx → EReal)
    = shapeCast S1x16 (m ((c.tc : Thread nD τ).loc main_arg5) : S16.Idx → EReal) shapeCasts_S16_S1x16 := by
  dsimp only [V, hostOps0]; after_results; rfl

theorem iblk5_apply (c : Dev nD) (t : Fin cfg0.N) (q : Fin 16) :
    (iblk m c 5 t : S1x16.Idx → EReal) (ix2 (0 : Fin 1) q) = m ((c.tc : Thread nD τ).loc main_arg5) (ix1 q) := by
  have hi := whole_idx t
  have e : ((cfg0.win 5).blk t).view.emb (ix2 (0 : Fin 1) q) = (ix2 (0 : Fin 1) q : S1x16.Idx) := funext fun a => Fin.ext (by
    match a with
    | ⟨0, _⟩ => show win0_5.index t (0 : Fin 2) * 1 + 1 * 0 = 0; rw [hi.w50]
    | ⟨1, _⟩ => show win0_5.index t (1 : Fin 2) * 16 + 1 * q.val = q.val; rw [hi.w51]; omega)
  show V m c main_call0_v1 (((cfg0.win 5).blk t).view.emb (ix2 (0 : Fin 1) q)) = _
  rw [e, V_main_call0_v1]
  refine (shapeCast_addUnit_apply ![16] _ shapeCasts_S16_S1x16 (ix2 (0 : Fin 1) q)).trans (congrArg _ (funext fun a => ?_))
  match a with
  | ⟨0, _⟩ => rfl

/-- A row block of adj·s + bias, read at the place of row `y 0` in the block of the point whose row-block number is
    `y 0 / 400`, is the whole layer at `y`. -/
theorem rowblock (c : Dev nD) (t : Fin cfg0.N) (s : S10000x16.Idx → EReal) (bb : S1x16.Idx → EReal) (b : S16.Idx → EReal)
    (hb : ∀ q : Fin 16, bb (ix2 (0 : Fin 1) q) = b (ix1 q)) (y : S10000x16.Idx) (hy : (y 0).val / 400 = t.val % 25) :
    prod (iblk m c 1 t : S400x10000.Idx → EReal) s (rowLoc y) + bb (ix2 (0 : Fin 1) (⟨(rowLoc y 1).val, (rowLoc y 1).isLt⟩ : Fin 16))
      = conv (m ((c.tc : Thread nD τ).loc main_arg1)) s b y := by
  unfold conv prod
  rw [hb]
  refine congrArg₂ (· + ·) (Finset.sum_congr rfl fun k _ => ?_) rfl
  have hy0 : (y 0).val < 10000 := (y 0).isLt
  exact congrArg (· * s (ix2 k (y 1))) (iblk1_apply m c t _ k ⟨(y 0).val, hy0⟩ (by show (y 0).val = 400 * (t.val % 25) + (y 0).val % 400; omega))

theorem S1_eq (c : Dev nD) : (S1 m c : S10000x16.Idx → EReal)
    = prod (m ((c.tc : Thread nD τ).loc main_arg0)) (m ((c.tc : Thread nD τ).loc main_arg2)) := by
  unfold S1; rw [pay1_eq, iblk0_eq, iblk2_eq]

theorem Hfull_eq (c : Dev nD) : (Hfull m c : S10000x16.Idx → EReal)
    = conv (m ((c.tc : Thread nD τ).loc main_arg1)) (prod (m ((c.tc : Thread nD τ).loc main_arg0)) (m ((c.tc : Thread nD τ).loc main_arg2)))
        (m ((c.tc : Thread nD τ).loc main_arg3)) := by
  funext y
  have hy0 : (y 0).val < 10000 := (y 0).isLt
  unfold Hfull
  rw [pay4_apply, S1_eq]
  exact rowblock m c (rowPt y) _ _ _ (iblk3_apply m c (rowPt y)) y (by show (y 0).val / 400 = ((y 0).val / 400) % 25; omega)

theorem S2_eq (c : Dev nD) : (S2 m c : S10000x16.Idx → EReal)
    = prod (relu z0 (conv (m ((c.tc : Thread nD τ).loc main_arg1)) (prod (m ((c.tc : Thread nD τ).loc main_arg0)) (m ((c.tc : Thread nD τ).loc main_arg2)))
        (m ((c.tc : Thread nD τ).loc main_arg3)))) (m ((c.tc : Thread nD τ).loc main_arg4)) := by
  unfold S2; rw [pay2_eq, Hfull_eq, iblk4_eq]

/-- The kernel's result array is the specification of the argument arrays. -/
theorem Gk_eq (c : Dev nD) : (Gk m c : S10000x16.Idx → EReal)
    = G z0 (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5)) := by
  funext y
  have hy0 : (y 0).val < 10000 := (y 0).isLt
  unfold Gk outAt G
  rw [pay5_apply, S2_eq]
  exact rowblock m c (outPt y) _ _ _ (iblk5_apply m c (outPt y)) y (by show (y 0).val / 400 = (25 + (y 0).val / 400) % 25; omega)

end AtIdeal

end Cert.KernelIdeal.Out

end
-- ==== Proof.RefValue.lean ====
/-
  The reference program computes the specification: its three kinds of contraction are matrix products, its two
  broadcasts of a bias read the bias at the column, its relu is the maximum with its zero constant.
-/
import proofs.«127602_g13606456393732_cont_sun_m_1345_5_alg».proof.Proof.Gen.ReferenceIdeal.Read
import proofs.«127602_g13606456393732_cont_sun_m_1345_5_alg».proof.Proof.Spec
import Idealize.ShloMosaic.PureOps.Ideal.Laws

noncomputable section

namespace Cert.ReferenceIdeal.RefValue

open Cert.ReferenceIdeal Cert.ReferenceIdeal.Gen Cert.ReferenceIdeal.Read Idealize.ShloMosaic Idealize.ShloMosaic.TcCoe Idealize.ShloMosaic.ValueIdx
open Cert.Gcn.Dense Cert.Gcn.Spec

theorem dA_l0 (i : (⟨2, ![10000, 16]⟩ : Shape).Idx) (q : dot_S10000x128_S128x16_S10000x16_1_0_0_1_n_n.contr.Idx) : (dot_S10000x128_S128x16_S10000x16_1_0_0_1_n_n.lhsIdx i q 0).val = (i 0).val := by
  unfold DotDims.lhsIdx
  rw [dif_neg (show ¬(0 : Fin 2) ∈ dot_S10000x128_S128x16_S10000x16_1_0_0_1_n_n.lhsBatch by decide), dif_pos (show (0 : Fin 2) ∈ dot_S10000x128_S128x16_S10000x16_1_0_0_1_n_n.lhsNonContracting by decide)]
  rfl
theorem dA_r1 (i : (⟨2, ![10000, 16]⟩ : Shape).Idx) (q : dot_S10000x128_S128x16_S10000x16_1_0_0_1_n_n.contr.Idx) : (dot_S10000x128_S128x16_S10000x16_1_0_0_1_n_n.rhsIdx i q 1).val = (i 1).val := by
  unfold DotDims.rhsIdx
  rw [dif_neg (show ¬(1 : Fin 2) ∈ dot_S10000x128_S128x16_S10000x16_1_0_0_1_n_n.rhsBatch by decide), dif_pos (show (1 : Fin 2) ∈ dot_S10000x128_S128x16_S10000x16_1_0_0_1_n_n.rhsNonContracting by decide)]
  rfl
/-- The contraction of this record is the matrix product. -/
theorem dA_sum (x : (⟨2, ![10000, 128]⟩ : Shape).Idx → EReal) (w : (⟨2, ![128, 16]⟩ : Shape).Idx → EReal) (i : (⟨2, ![10000, 16]⟩ : Shape).Idx) :
    ∑ k : dot_S10000x128_S128x16_S10000x16_1_0_0_1_n_n.contr.Idx, x (dot_S10000x128_S128x16_S10000x16_1_0_0_1_n_n.lhsIdx i k) * w (dot_S10000x128_S128x16_S10000x16_1_0_0_1_n_n.rhsIdx i k) = prod x w i :=
  sum_contr_eq_prod dot_S10000x128_S128x16_S10000x16_1_0_0_1_n_n rfl rfl dA_l0 (fun i q => dot_S10000x128_S128x16_S10000x16_1_0_0_1_n_n.lhsIdx_val_of_single rfl i q)
    (fun i q => dot_S10000x128_S128x16_S10000x16_1_0_0_1_n_n.rhsIdx_val_of_single rfl i q) dA_r1 x w i

theorem dB_l0 (i : (⟨2, ![10000, 16]⟩ : Shape).Idx) (q : dot_S10000x10000_S10000x16_S10000x16_1_0_0_1_n_n.contr.Idx) : (dot_S10000x10000_S10000x16_S10000x16_1_0_0_1_n_n.lhsIdx i q 0).val = (i 0).val := by
  unfold DotDims.lhsIdx
  rw [dif_neg (show ¬(0 : Fin 2) ∈ dot_S10000x10000_S10000x16_S10000x16_1_0_0_1_n_n.lhsBatch by decide), dif_pos (show (0 : Fin 2) ∈ dot_S10000x10000_S10000x16_S10000x16_1_0_0_1_n_n.lhsNonContracting by decide)]
  rfl
theorem dB_r1 (i : (⟨2, ![10000, 16]⟩ : Shape).Idx) (q : dot_S10000x10000_S10000x16_S10000x16_1_0_0_1_n_n.contr.Idx) : (dot_S10000x10000_S10000x16_S10000x16_1_0_0_1_n_n.rhsIdx i q 1).val = (i 1).val := by
  unfold DotDims.rhsIdx
  rw [dif_neg (show ¬(1 : Fin 2) ∈ dot_S10000x10000_S10000x16_S10000x16_1_0_0_1_n_n.rhsBatch by decide), dif_pos (show (1 : Fin 2) ∈ dot_S10000x10000_S10000x16_S10000x16_1_0_0_1_n_n.rhsNonContracting by decide)]
  rfl
/-- The contraction of this record is the matrix product. -/
theorem dB_sum (x : (⟨2, ![10000, 10000]⟩ : Shape).Idx → EReal) (w : (⟨2, ![10000, 16]⟩ : Shape).Idx → EReal) (i : (⟨2, ![10000, 16]⟩ : Shape).Idx) :
    ∑ k : dot_S10000x10000_S10000x16_S10000x16_1_0_0_1_n_n.contr.Idx, x (dot_S10000x10000_S10000x16_S10000x16_1_0_0_1_n_n.lhsIdx i k) * w (dot_S10000x10000_S10000x16_S10000x16_1_0_0_1_n_n.rhsIdx i k) = prod x w i :=
  sum_contr_eq_prod dot_S10000x10000_S10000x16_S10000x16_1_0_0_1_n_n rfl rfl dB_l0 (fun i q => dot_S10000x10000_S10000x16_S10000x16_1_0_0_1_n_n.lhsIdx_val_of_single rfl i q)
    (fun i q => dot_S10000x10000_S10000x16_S10000x16_1_0_0_1_n_n.rhsIdx_val_of_single rfl i q) dB_r1 x w i

theorem dC_l0 (i : (⟨2, ![10000, 16]⟩ : Shape).Idx) (q : dot_S10000x16_S16x16_S10000x16_1_0_0_1_n_n.contr.Idx) : (dot_S10000x16_S16x16_S10000x16_1_0_0_1_n_n.lhsIdx i q 0).val = (i 0).val := by
  unfold DotDims.lhsIdx
  rw [dif_neg (show ¬(0 : Fin 2) ∈ dot_S10000x16_S16x16_S10000x16_1_0_0_1_n_n.lhsBatch by decide), dif_pos (show (0 : Fin 2) ∈ dot_S10000x16_S16x16_S10000x16_1_0_0_1_n_n.lhsNonContracting by decide)]
  rfl
theorem dC_r1 (i : (⟨2, ![10000, 16]⟩ : Shape).Idx) (q : dot_S10000x16_S16x16_S10000x16_1_0_0_1_n_n.contr.Idx) : (dot_S10000x16_S16x16_S10000x16_1_0_0_1_n_n.rhsIdx i q 1).val = (i 1).val := by
  unfold DotDims.rhsIdx
  rw [dif_neg (show ¬(1 : Fin 2) ∈ dot_S10000x16_S16x16_S10000x16_1_0_0_1_n_n.rhsBatch by decide), dif_pos (show (1 : Fin 2) ∈ dot_S10000x16_S16x16_S10000x16_1_0_0_1_n_n.rhsNonContracting by decide)]
  rfl
/-- The contraction of this record is the matrix product. -/
theorem dC_sum (x : (⟨2, ![10000, 16]⟩ : Shape).Idx → EReal) (w : (⟨2, ![16, 16]⟩ : Shape).Idx → EReal) (i : (⟨2, ![10000, 16]⟩ : Shape).Idx) :
    ∑ k : dot_S10000x16_S16x16_S10000x16_1_0_0_1_n_n.contr.Idx, x (dot_S10000x16_S16x16_S10000x16_1_0_0_1_n_n.lhsIdx i k) * w (dot_S10000x16_S16x16_S10000x16_1_0_0_1_n_n.rhsIdx i k) = prod x w i :=
  sum_contr_eq_prod dot_S10000x16_S16x16_S10000x16_1_0_0_1_n_n rfl rfl dC_l0 (fun i q => dot_S10000x16_S16x16_S10000x16_1_0_0_1_n_n.lhsIdx_val_of_single rfl i q)
    (fun i q => dot_S10000x16_S16x16_S10000x16_1_0_0_1_n_n.rhsIdx_val_of_single rfl i q) dC_r1 x w i

theorem dotA (x : FVec Ideal S10000x128 .f32) (w : FVec Ideal S128x16 .f32) :
    Host.dotGeneral (F := Ideal) dot_S10000x128_S128x16_S10000x16_1_0_0_1_n_n none x w = prod x w := by
  funext i; simp only [Host.dotGeneral]; rw [Ideal.dotGeneral_apply]; exact dA_sum x w i
theorem dotB (x : FVec Ideal S10000x10000 .f32) (w : FVec Ideal S10000x16 .f32) :
    Host.dotGeneral (F := Ideal) dot_S10000x10000_S10000x16_S10000x16_1_0_0_1_n_n none x w = prod x w := by
  funext i; simp only [Host.dotGeneral]; rw [Ideal.dotGeneral_apply]; exact dB_sum x w i
theorem dotC (x : FVec Ideal S10000x16 .f32) (w : FVec Ideal S16x16 .f32) :
    Host.dotGeneral (F := Ideal) dot_S10000x16_S16x16_S10000x16_1_0_0_1_n_n none x w = prod x w := by
  funext i; simp only [Host.dotGeneral]; rw [Ideal.dotGeneral_apply]; exact dC_sum x w i

/-- A bias broadcast to a row and then to every row, read at an index, is the bias at the column. -/
theorem bias_apply (b : S16.Idx → EReal) (i : S10000x16.Idx) : val_main_v3 (F := Ideal) b i = b (ix1 (i 1)) := by
  rw [val_main_v3_apply, val_main_v2_apply]
  exact congrArg b (funext fun a => match a with | ⟨0, _⟩ => rfl)
theorem bias_apply' (b : S16.Idx → EReal) (i : S10000x16.Idx) : val_main_v9 (F := Ideal) b i = b (ix1 (i 1)) := by
  rw [val_main_v9_apply, val_main_v8_apply]
  exact congrArg b (funext fun a => match a with | ⟨0, _⟩ => rfl)

/-- The reference's result is the specification of its arguments. -/
theorem ref_eq (x0 : S10000x128.Idx → EReal) (x1 : S10000x10000.Idx → EReal) (x2 : S128x16.Idx → EReal) (x3 : S16.Idx → EReal)
    (x4 : S16x16.Idx → EReal) (x5 : S16.Idx → EReal) :
    val_main_v10 (F := Ideal) x0 x1 x2 x3 x4 x5 = G (Ideal.ofBits .f32 0x00000000#32) x0 x1 x2 x3 x4 x5 := by
  have e1 : val_main_v1 (F := Ideal) x0 x1 x2 = prod x1 (prod x0 x2) := by
    unfold val_main_v1 val_main_v0; rw [dotA, dotB]
  have e4 : val_main_v4 (F := Ideal) x0 x1 x2 x3 = conv x1 (prod x0 x2) x3 := by
    funext i; rw [val_main_v4_apply, e1, bias_apply]; rfl
  have e5 : val_main_v5 (F := Ideal) x0 x1 x2 x3 = relu (Ideal.ofBits .f32 0x00000000#32) (conv x1 (prod x0 x2) x3) := by
    funext i; rw [val_main_v5_apply, e4, val_main_call0_v0_apply, val_main_call0_cst_apply]; rfl
  have e7 : val_main_v7 (F := Ideal) x0 x1 x2 x3 x4 = prod x1 (prod (relu (Ideal.ofBits .f32 0x00000000#32) (conv x1 (prod x0 x2) x3)) x4) := by
    unfold val_main_v7 val_main_v6; rw [e5, dotC, dotB]
  funext i
  rw [val_main_v10_apply, e7, bias_apply']
  rfl

end Cert.ReferenceIdeal.RefValue

end
-- ==== Proof.lean ====
/-
  The certificate of a two-layer graph convolution computed by one kernel region over a (2, 25) grid against its plain
  reference: out = adj · (relu(adj · (x · W1) + b1) · W2) + b2.

  The three frames: the kernel (at the word-level and at the ideal instance, one proof text in two namespaces) runs
  through its fifty points under an invariant on its two scratch buffers — the first holds x·W1 through pass 0 and
  relu(H)·W2 through pass 1, the second collects H = adj·(x·W1) + b1 four hundred rows per point of pass 0 —; the
  reference is a straight line of host operations. The ideal pass rewrote nothing, so there is nothing to preserve.
  The value: the kernel's result array, tiled by the blocks the points of pass 1 write back, is the specification of
  the arguments (Spec.lean) at the ideal instance, and so is the reference's result; both in the same arrangement of
  sums, so the precondition is not used.
-/
import proofs.«127602_g13606456393732_cont_sun_m_1345_5_alg».proof.Defs
import proofs.«127602_g13606456393732_cont_sun_m_1345_5_alg».proof.Proof.Gen.Kernel
import proofs.«127602_g13606456393732_cont_sun_m_1345_5_alg».proof.Proof.Gen.KernelIdeal
import proofs.«127602_g13606456393732_cont_sun_m_1345_5_alg».proof.Proof.Gen.ReferenceIdeal
import proofs.«127602_g13606456393732_cont_sun_m_1345_5_alg».proof.Proof.Gen.Pre_finite_inputs
import proofs.«127602_g13606456393732_cont_sun_m_1345_5_alg».proof.Proof.Gen.ReferenceIdeal.Run
import proofs.«127602_g13606456393732_cont_sun_m_1345_5_alg».proof.Proof.Gen.ReferenceIdeal.Read
import proofs.«127602_g13606456393732_cont_sun_m_1345_5_alg».proof.Proof.BitsBody
import proofs.«127602_g13606456393732_cont_sun_m_1345_5_alg».proof.Proof.IdealBody
import proofs.«127602_g13606456393732_cont_sun_m_1345_5_alg».proof.Proof.IdealValue
import proofs.«127602_g13606456393732_cont_sun_m_1345_5_alg».proof.Proof.RefValue
import Idealize.ShloMosaic.Adequacy
import Idealize.ShloMosaic.Init

noncomputable section

namespace Cert.Proof

open Idealize.ShloMosaic Idealize.SL.Sem

theorem frame_k : Cert.frame_Kernel := fun m ρ _ => Cert.Kernel.Body.frame m ρ

theorem frame_ki : Cert.frame_KernelIdeal := fun m ρ _ => Cert.KernelIdeal.Body.frame m ρ

theorem frame_ri : Cert.frame_ReferenceIdeal := fun m ρ _ =>
  (θ_run Cert.ReferenceIdeal.defs _ _).mono (fun _ h c => (h c).2) (Cert.ReferenceIdeal.Value.run (F := Ideal) m ρ)

/-- Both programs end with the specification of arguments that agree. -/
theorem algebraic : Cert.algebraic_KernelIdeal_ReferenceIdeal := by
  intro m ρ m' ρ' _ hagree
  refine ⟨fun c => Cert.KernelIdeal.Out.Gk m c, Cert.KernelIdeal.Out.run (F := Ideal) m ρ, ?_⟩
  refine (θ_run Cert.ReferenceIdeal.defs _ _).mono (fun _ h c => ⟨(h c).1.trans ?_, (h c).2⟩)
    (Cert.ReferenceIdeal.Value.run (F := Ideal) m' ρ')
  show _ = Cert.KernelIdeal.Out.Gk m c
  rw [Cert.ReferenceIdeal.Read.val_main_v10_eq, Cert.ReferenceIdeal.RefValue.ref_eq, Cert.KernelIdeal.Out.Gk_eq,
    (hagree c).1, (hagree c).2.1, (hagree c).2.2.1, (hagree c).2.2.2.1, (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
